-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S500000 : Shape := ⟨1, ![500000]⟩
abbrev S100000 : Shape := ⟨1, ![100000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x128 .f32) (main_arg1 : FVec F S20000x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_arg14 : IVec S500000 32) (main_arg15 : IVec S500000 32) (main_arg16 : IVec S500000 32) (main_arg17 : IVec S500000 32) (main_arg18 : IVec S100000 32) (main_arg19 : IVec S100000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S500000 : Shape := ⟨1, ![500000]⟩
abbrev S100000 : Shape := ⟨1, ![100000]⟩
abbrev S_ : Shape := ⟨0, ![]⟩
abbrev S500000x1 : Shape := ⟨2, ![500000, 1]⟩
abbrev S500000x128 : Shape := ⟨2, ![500000, 128]⟩
abbrev S20000 : Shape := ⟨1, ![20000]⟩
abbrev S20000x1 : Shape := ⟨2, ![20000, 1]⟩
abbrev S2000x128 : Shape := ⟨2, ![2000, 128]⟩
abbrev S1x128 : Shape := ⟨2, ![1, 128]⟩
abbrev S50000 : Shape := ⟨1, ![50000]⟩
abbrev S50000x1 : Shape := ⟨2, ![50000, 1]⟩
abbrev S100000x1 : Shape := ⟨2, ![100000, 1]⟩
abbrev S100000x128 : Shape := ⟨2, ![100000, 128]⟩
abbrev S2000x1 : Shape := ⟨2, ![2000, 1]⟩
abbrev S2000 : Shape := ⟨1, ![2000]⟩

abbrev nBuf : Space → Nat
  | .hbm => 152
  | .vmem => 42
  | .smem => 0
  | _ => 0

abbrev hbmTy0_0 (i : Nat) : BufTy := match i % 128 with
  | 0 => ⟨S50000x128, .f32⟩
  | 1 => ⟨S20000x128, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128, .f32⟩
  | 14 => ⟨S500000, .i32⟩
  | 15 => ⟨S500000, .i32⟩
  | 16 => ⟨S500000, .i32⟩
  | 17 => ⟨S500000, .i32⟩
  | 18 => ⟨S100000, .i32⟩
  | 19 => ⟨S100000, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x128, .f32⟩
  | 29 => ⟨S_, .f32⟩
  | 30 => ⟨S20000x128, .f32⟩
  | 31 => ⟨S500000x1, .i32⟩
  | 32 => ⟨S20000x128, .f32⟩
  | 33 => ⟨S_, .f32⟩
  | 34 => ⟨S500000, .f32⟩
  | 35 => ⟨S_, .f32⟩
  | 36 => ⟨S20000, .f32⟩
  | 37 => ⟨S500000x1, .i32⟩
  | 38 => ⟨S20000, .f32⟩
  | 39 => ⟨S_, .f32⟩
  | 40 => ⟨S20000, .f32⟩
  | 41 => ⟨S20000, .f32⟩
  | 42 => ⟨S20000x1, .f32⟩
  | 43 => ⟨S20000x128, .f32⟩
  | 44 => ⟨S20000x128, .f32⟩
  | 45 => ⟨S128x128, .f32⟩
  | 46 => ⟨S128x128, .f32⟩
  | 47 => ⟨S20000x128, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S_, .f32⟩
  | 58 => ⟨S50000x128, .f32⟩
  | 59 => ⟨S500000x1, .i32⟩
  | 60 => ⟨S50000x128, .f32⟩
  | 61 => ⟨S_, .f32⟩
  | 62 => ⟨S500000, .f32⟩
  | 63 => ⟨S_, .f32⟩
  | 64 => ⟨S50000, .f32⟩
  | 65 => ⟨S500000x1, .i32⟩
  | 66 => ⟨S50000, .f32⟩
  | 67 => ⟨S_, .f32⟩
  | 68 => ⟨S50000, .f32⟩
  | 69 => ⟨S50000, .f32⟩
  | 70 => ⟨S50000x1, .f32⟩
  | 71 => ⟨S50000x128, .f32⟩
  | 72 => ⟨S50000x128, .f32⟩
  | 73 => ⟨S128x128, .f32⟩
  | 74 => ⟨S128x128, .f32⟩
  | 75 => ⟨S50000x128, .f32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S500000x128, .f32⟩
  | 85 => ⟨S_, .f32⟩
  | 86 => ⟨S20000x128, .f32⟩
  | 87 => ⟨S500000x1, .i32⟩
  | 88 => ⟨S20000x128, .f32⟩
  | 89 => ⟨S_, .f32⟩
  | 90 => ⟨S500000, .f32⟩
  | 91 => ⟨S_, .f32⟩
  | 92 => ⟨S20000, .f32⟩
  | 93 => ⟨S500000x1, .i32⟩
  | 94 => ⟨S20000, .f32⟩
  | 95 => ⟨S_, .f32⟩
  | 96 => ⟨S20000, .f32⟩
  | 97 => ⟨S20000, .f32⟩
  | 98 => ⟨S20000x1, .f32⟩
  | 99 => ⟨S20000x128, .f32⟩
  | 100 => ⟨S20000x128, .f32⟩
  | 101 => ⟨S128x128, .f32⟩
  | 102 => ⟨S128x128, .f32⟩
  | 103 => ⟨S20000x128, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x128, .f32⟩
  | 113 => ⟨S_, .f32⟩
  | 114 => ⟨S50000x128, .f32⟩
  | 115 => ⟨S500000x1, .i32⟩
  | 116 => ⟨S50000x128, .f32⟩
  | 117 => ⟨S_, .f32⟩
  | 118 => ⟨S500000, .f32⟩
  | 119 => ⟨S_, .f32⟩
  | 120 => ⟨S50000, .f32⟩
  | 121 => ⟨S500000x1, .i32⟩
  | 122 => ⟨S50000, .f32⟩
  | 123 => ⟨S_, .f32⟩
  | 124 => ⟨S50000, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S128x128, .f32⟩
  | 2 => ⟨S128x128, .f32⟩
  | 3 => ⟨S50000x128, .f32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S100000x1, .i32⟩
  | 12 => ⟨S100000x128, .f32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S100000x1, .f32⟩
  | 23 => ⟨S100000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S128, .f32⟩
  | .local _ .vmem, ⟨33, _⟩ => ⟨S128x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x1, .f32⟩
  | .local _ .vmem, ⟨41, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_7 : Ref sig .tc := ⟨.hbm, 61, rfl⟩
abbrev main_v32 : Ref sig .tc := ⟨.hbm, 62, rfl⟩
abbrev main_cst_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_10 : Ref sig .tc := ⟨.hbm, 76, rfl⟩
abbrev main_v44 : Ref sig .tc := ⟨.hbm, 77, rfl⟩
abbrev main_v45 : Ref sig .tc := ⟨.hbm, 78, rfl⟩
abbrev main_c_11 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_cst_14 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_15 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_16 : Ref sig .tc := ⟨.hbm, 104, rfl⟩
abbrev main_v66 : Ref sig .tc := ⟨.hbm, 105, rfl⟩
abbrev main_v67 : Ref sig .tc := ⟨.hbm, 106, rfl⟩
abbrev main_c_17 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_18 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_19 : Ref sig .tc := ⟨.hbm, 117, rfl⟩
abbrev main_v76 : Ref sig .tc := ⟨.hbm, 118, rfl⟩
abbrev main_cst_20 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_21 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_22 : Ref sig .tc := ⟨.hbm, 132, rfl⟩
abbrev main_v88 : Ref sig .tc := ⟨.hbm, 133, rfl⟩
abbrev main_v89 : Ref sig .tc := ⟨.hbm, 134, rfl⟩
abbrev main_c_23 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_c_24 : Ref sig .tc := ⟨.hbm, 141, rfl⟩
abbrev main_v95 : Ref sig .tc := ⟨.hbm, 142, rfl⟩
abbrev main_v96 : Ref sig .tc := ⟨.hbm, 143, rfl⟩
abbrev main_c_25 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000 : S_.BroadcastsInDim S100000 (![] : Fin 0 → Fin S100000.rank)
  bcast_S100000_S100000x1_0 : S100000.BroadcastsInDim S100000x1 (![0] : Fin 1 → Fin S100000x1.rank)
  reduces_S2000x128_S2000 : S2000x128.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  gather_S50000x128_S500000x1_S500000x128_1_0_n_n_0_1_1128_wf : GatherDims.WF S50000x128 S500000x1 S500000x128 [1] [0] [] [0] [] 1 ![1, 128]
  scatter_S20000x128_S500000x1_S500000x128_1_0_0_1_wf : ScatterDims.WF S20000x128 S500000x1 S500000x128 [1] [0] [0] 1
  scatter_S20000_S500000x1_S500000_n_0_0_1_wf : ScatterDims.WF S20000 S500000x1 S500000 [] [0] [0] 1
  dot_S2000x128_S128x128_S2000x128_1_0_0_1_n_n_wf : DotDims.WF S2000x128 S128x128 S2000x128 [1] [0] [0] [1] [] []
  gather_S20000x128_S500000x1_S500000x128_1_0_n_n_0_1_1128_wf : GatherDims.WF S20000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S50000x128_S100000x1_S100000x128_1_0_n_n_0_1_1128_wf : GatherDims.WF S50000x128 S100000x1 S100000x128 [1] [0] [] [0] [] 1 ![1, 128]
  gather_S20000x128_S100000x1_S100000x128_1_0_n_n_0_1_1128_wf : GatherDims.WF S20000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .f32 = 32 ∨ (Rect.block (s := S20000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v84) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v94) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v102) S2000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S500000 : Shape := ⟨1, ![500000]⟩
abbrev S100000 : Shape := ⟨1, ![100000]⟩
abbrev S_ : Shape := ⟨0, ![]⟩
abbrev S500000x1 : Shape := ⟨2, ![500000, 1]⟩
abbrev S500000x128 : Shape := ⟨2, ![500000, 128]⟩
abbrev S20000 : Shape := ⟨1, ![20000]⟩
abbrev S20000x1 : Shape := ⟨2, ![20000, 1]⟩
abbrev S1x128 : Shape := ⟨2, ![1, 128]⟩
abbrev S50000 : Shape := ⟨1, ![50000]⟩
abbrev S50000x1 : Shape := ⟨2, ![50000, 1]⟩
abbrev S100000x1 : Shape := ⟨2, ![100000, 1]⟩
abbrev S100000x128 : Shape := ⟨2, ![100000, 128]⟩

abbrev nBuf : Space → Nat
  | .hbm => 195
  | .vmem => 0
  | .smem => 0
  | _ => 0

abbrev hbmTy0_0 (i : Nat) : BufTy := match i % 128 with
  | 0 => ⟨S50000x128, .f32⟩
  | 1 => ⟨S20000x128, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128, .f32⟩
  | 14 => ⟨S500000, .i32⟩
  | 15 => ⟨S500000, .i32⟩
  | 16 => ⟨S500000, .i32⟩
  | 17 => ⟨S500000, .i32⟩
  | 18 => ⟨S100000, .i32⟩
  | 19 => ⟨S100000, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x128, .f32⟩
  | 29 => ⟨S_, .f32⟩
  | 30 => ⟨S20000x128, .f32⟩
  | 31 => ⟨S500000x1, .i32⟩
  | 32 => ⟨S20000x128, .f32⟩
  | 33 => ⟨S_, .f32⟩
  | 34 => ⟨S500000, .f32⟩
  | 35 => ⟨S_, .f32⟩
  | 36 => ⟨S20000, .f32⟩
  | 37 => ⟨S500000x1, .i32⟩
  | 38 => ⟨S20000, .f32⟩
  | 39 => ⟨S_, .f32⟩
  | 40 => ⟨S20000, .f32⟩
  | 41 => ⟨S20000, .f32⟩
  | 42 => ⟨S20000x1, .f32⟩
  | 43 => ⟨S20000x128, .f32⟩
  | 44 => ⟨S20000x128, .f32⟩
  | 45 => ⟨S128x128, .f32⟩
  | 46 => ⟨S20000x128, .f32⟩
  | 47 => ⟨S1x128, .f32⟩
  | 48 => ⟨S20000x128, .f32⟩
  | 49 => ⟨S20000x128, .f32⟩
  | 50 => ⟨S128x128, .f32⟩
  | 51 => ⟨S20000x128, .f32⟩
  | 52 => ⟨S20000x128, .f32⟩
  | 53 => ⟨S_, .f32⟩
  | 54 => ⟨S20000x128, .f32⟩
  | 55 => ⟨S20000x128, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S_, .f32⟩
  | 66 => ⟨S50000x128, .f32⟩
  | 67 => ⟨S500000x1, .i32⟩
  | 68 => ⟨S50000x128, .f32⟩
  | 69 => ⟨S_, .f32⟩
  | 70 => ⟨S500000, .f32⟩
  | 71 => ⟨S_, .f32⟩
  | 72 => ⟨S50000, .f32⟩
  | 73 => ⟨S500000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S128x128, .f32⟩
  | 82 => ⟨S50000x128, .f32⟩
  | 83 => ⟨S1x128, .f32⟩
  | 84 => ⟨S50000x128, .f32⟩
  | 85 => ⟨S50000x128, .f32⟩
  | 86 => ⟨S128x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x128, .f32⟩
  | 101 => ⟨S_, .f32⟩
  | 102 => ⟨S20000x128, .f32⟩
  | 103 => ⟨S500000x1, .i32⟩
  | 104 => ⟨S20000x128, .f32⟩
  | 105 => ⟨S_, .f32⟩
  | 106 => ⟨S500000, .f32⟩
  | 107 => ⟨S_, .f32⟩
  | 108 => ⟨S20000, .f32⟩
  | 109 => ⟨S500000x1, .i32⟩
  | 110 => ⟨S20000, .f32⟩
  | 111 => ⟨S_, .f32⟩
  | 112 => ⟨S20000, .f32⟩
  | 113 => ⟨S20000, .f32⟩
  | 114 => ⟨S20000x1, .f32⟩
  | 115 => ⟨S20000x128, .f32⟩
  | 116 => ⟨S20000x128, .f32⟩
  | 117 => ⟨S128x128, .f32⟩
  | 118 => ⟨S20000x128, .f32⟩
  | 119 => ⟨S1x128, .f32⟩
  | 120 => ⟨S20000x128, .f32⟩
  | 121 => ⟨S20000x128, .f32⟩
  | 122 => ⟨S128x128, .f32⟩
  | 123 => ⟨S20000x128, .f32⟩
  | 124 => ⟨S20000x128, .f32⟩
  | 125 => ⟨S_, .i32⟩
  | 126 => ⟨S500000, .i32⟩
  | 127 => ⟨S500000, .i1⟩
  | _ => ⟨S50000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x128, .f32⟩
  | 6 => ⟨S_, .f32⟩
  | 7 => ⟨S50000x128, .f32⟩
  | 8 => ⟨S500000x1, .i32⟩
  | 9 => ⟨S50000x128, .f32⟩
  | 10 => ⟨S_, .f32⟩
  | 11 => ⟨S500000, .f32⟩
  | 12 => ⟨S_, .f32⟩
  | 13 => ⟨S50000, .f32⟩
  | 14 => ⟨S500000x1, .i32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x128, .f32⟩
  | 21 => ⟨S50000x128, .f32⟩
  | 22 => ⟨S128x128, .f32⟩
  | 23 => ⟨S50000x128, .f32⟩
  | 24 => ⟨S1x128, .f32⟩
  | 25 => ⟨S50000x128, .f32⟩
  | 26 => ⟨S50000x128, .f32⟩
  | 27 => ⟨S128x128, .f32⟩
  | 28 => ⟨S50000x128, .f32⟩
  | 29 => ⟨S50000x128, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x128, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x128, .f32⟩
  | 48 => ⟨S100000x128, .f32⟩
  | 49 => ⟨S_, .f32⟩
  | 50 => ⟨S100000, .f32⟩
  | 51 => ⟨S100000, .f32⟩
  | 52 => ⟨S_, .f32⟩
  | 53 => ⟨S100000, .f32⟩
  | 54 => ⟨S100000, .f32⟩
  | 55 => ⟨S100000x128, .f32⟩
  | 56 => ⟨S_, .f32⟩
  | 57 => ⟨S100000, .f32⟩
  | 58 => ⟨S100000, .f32⟩
  | 59 => ⟨S_, .f32⟩
  | 60 => ⟨S100000, .f32⟩
  | 61 => ⟨S100000, .f32⟩
  | 62 => ⟨S100000x128, .f32⟩
  | 63 => ⟨S_, .f32⟩
  | 64 => ⟨S100000, .f32⟩
  | 65 => ⟨S100000, .f32⟩
  | 66 => ⟨S100000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_call0_cst : Ref sig .tc := ⟨.hbm, 53, rfl⟩
abbrev main_call0_v0 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_cst_8 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_9 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_call1_cst : Ref sig .tc := ⟨.hbm, 89, rfl⟩
abbrev main_call1_v0 : Ref sig .tc := ⟨.hbm, 90, rfl⟩
abbrev main_v55 : Ref sig .tc := ⟨.hbm, 91, rfl⟩
abbrev main_c_10 : Ref sig .tc := ⟨.hbm, 92, rfl⟩
abbrev main_v56 : Ref sig .tc := ⟨.hbm, 93, rfl⟩
abbrev main_v57 : Ref sig .tc := ⟨.hbm, 94, rfl⟩
abbrev main_c_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_13 : Ref sig .tc := ⟨.hbm, 105, rfl⟩
abbrev main_v66 : Ref sig .tc := ⟨.hbm, 106, rfl⟩
abbrev main_cst_14 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_16 : Ref sig .tc := ⟨.hbm, 125, rfl⟩
abbrev main_v83 : Ref sig .tc := ⟨.hbm, 126, rfl⟩
abbrev main_v84 : Ref sig .tc := ⟨.hbm, 127, rfl⟩
abbrev main_c_17 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_18 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_19 : Ref sig .tc := ⟨.hbm, 138, rfl⟩
abbrev main_v93 : Ref sig .tc := ⟨.hbm, 139, rfl⟩
abbrev main_cst_20 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_21 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_22 : Ref sig .tc := ⟨.hbm, 158, rfl⟩
abbrev main_v110 : Ref sig .tc := ⟨.hbm, 159, rfl⟩
abbrev main_v111 : Ref sig .tc := ⟨.hbm, 160, rfl⟩
abbrev main_c_23 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_c_24 : Ref sig .tc := ⟨.hbm, 167, rfl⟩
abbrev main_v117 : Ref sig .tc := ⟨.hbm, 168, rfl⟩
abbrev main_v118 : Ref sig .tc := ⟨.hbm, 169, rfl⟩
abbrev main_c_25 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_call2_v0 : Ref sig .tc := ⟨.hbm, 176, rfl⟩
abbrev main_call2_cst : Ref sig .tc := ⟨.hbm, 177, rfl⟩
abbrev main_call2_v1 : Ref sig .tc := ⟨.hbm, 178, rfl⟩
abbrev main_v124 : Ref sig .tc := ⟨.hbm, 179, rfl⟩
abbrev main_cst_26 : Ref sig .tc := ⟨.hbm, 180, rfl⟩
abbrev main_v125 : Ref sig .tc := ⟨.hbm, 181, rfl⟩
abbrev main_v126 : Ref sig .tc := ⟨.hbm, 182, rfl⟩
abbrev main_call3_v0 : Ref sig .tc := ⟨.hbm, 183, rfl⟩
abbrev main_call3_cst : Ref sig .tc := ⟨.hbm, 184, rfl⟩
abbrev main_call3_v1 : Ref sig .tc := ⟨.hbm, 185, rfl⟩
abbrev main_v127 : Ref sig .tc := ⟨.hbm, 186, rfl⟩
abbrev main_cst_27 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_28 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S100000 : S_.BroadcastsInDim S100000 (![] : Fin 0 → Fin S100000.rank)
  bcast_S100000_S100000x1_0 : S100000.BroadcastsInDim S100000x1 (![0] : Fin 1 → Fin S100000x1.rank)
  reducesTo_S100000x128_S100000_d1 : S100000x128.ReducesTo [1] S100000
  h_S_ : 0 < S_.numel
  gather_S50000x128_S500000x1_S500000x128_1_0_n_n_0_1_1128_wf : GatherDims.WF S50000x128 S500000x1 S500000x128 [1] [0] [] [0] [] 1 ![1, 128]
  scatter_S20000x128_S500000x1_S500000x128_1_0_0_1_wf : ScatterDims.WF S20000x128 S500000x1 S500000x128 [1] [0] [0] 1
  scatter_S20000_S500000x1_S500000_n_0_0_1_wf : ScatterDims.WF S20000 S500000x1 S500000 [] [0] [0] 1
  dot_S20000x128_S128x128_S20000x128_1_0_0_1_n_n_wf : DotDims.WF S20000x128 S128x128 S20000x128 [1] [0] [0] [1] [] []
  gather_S20000x128_S500000x1_S500000x128_1_0_n_n_0_1_1128_wf : GatherDims.WF S20000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  gather_S50000x128_S100000x1_S100000x128_1_0_n_n_0_1_1128_wf : GatherDims.WF S50000x128 S100000x1 S100000x128 [1] [0] [] [0] [] 1 ![1, 128]
  gather_S20000x128_S100000x1_S100000x128_1_0_n_n_0_1_1128_wf : GatherDims.WF S20000x128 S100000x1 S100000x128 [1] [0] [] [0] [] 1 ![1, 128]

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf

class Facts : Prop extends Facts₀ where

variable [Facts]
-- ==== Proof.KRun.lean ====
/-
  The idealized kernel program's run, with its result named: every weakly fair execution terminates, nothing faults, the
  argument arrays end as launched, and the result array ends at what the last boundary of the program's segments holds
  for it (`Gen.W11`: the contents after the five launched regions and the stretches of host operations between
  them, folded from the launch memory). The frame forgets the result; here the same launch over the same segments keeps it.
-/
import proofs.«105883_j54863912239638_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's eleven segments, the final state read at every unscoped buffer: the result array at the
    last boundary's contents, each argument as launched. -/
theorem run_value : θ_run defs (onTc (τ := τ) (main (F := F))) ⟨m, fun _ => 0, ρ⟩ (fun r => ∀ c : Dev nD,
      r.2.mem ((c.tc : Thread nD τ).loc main_v103) = W11 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v103 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c)⟩)

end Cert.KernelIdeal.Hand

end
-- ==== Proof.Keep.lean ====
/-
  A stretch of host operations writes only its own results: the argument arrays, and the earlier regions' results that
  a later step still reads, pass through it unchanged — for any contents `W` at the stretch's start.
-/
import proofs.«105883_j54863912239638_1_alg».proof.Proof.Gen.KernelIdeal.Launch
import Idealize.ShloMosaic.Lib.StableHlo.Run
set_option maxRecDepth 16384

noncomputable section

namespace Cert.KernelIdeal.Hand

open Cert.KernelIdeal Cert.KernelIdeal.Gen Idealize.ShloMosaic Idealize.ShloMosaic.TcCoe Idealize.SL.Sem

/-- A stretch of host operations leaves a buffer none of them writes as it was. -/
macro "not_written" ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable {F : FTy → Type} [FloatOps F] (W : Valuation τ sig (Elt F))

theorem keepH0_arg0 : StableHlo.after (hostOps0 (F := F)) W (Proc.devRef .tc main_arg0) = W (Proc.devRef .tc main_arg0) := by not_written hostOps0
theorem keepH0_arg1 : StableHlo.after (hostOps0 (F := F)) W (Proc.devRef .tc main_arg1) = W (Proc.devRef .tc main_arg1) := by not_written hostOps0
theorem keepH0_arg4 : StableHlo.after (hostOps0 (F := F)) W (Proc.devRef .tc main_arg4) = W (Proc.devRef .tc main_arg4) := by not_written hostOps0
theorem keepH0_arg5 : StableHlo.after (hostOps0 (F := F)) W (Proc.devRef .tc main_arg5) = W (Proc.devRef .tc main_arg5) := by not_written hostOps0
theorem keepH0_arg6 : StableHlo.after (hostOps0 (F := F)) W (Proc.devRef .tc main_arg6) = W (Proc.devRef .tc main_arg6) := by not_written hostOps0
theorem keepH0_arg7 : StableHlo.after (hostOps0 (F := F)) W (Proc.devRef .tc main_arg7) = W (Proc.devRef .tc main_arg7) := by not_written hostOps0
theorem keepH0_arg8 : StableHlo.after (hostOps0 (F := F)) W (Proc.devRef .tc main_arg8) = W (Proc.devRef .tc main_arg8) := by not_written hostOps0
theorem keepH0_arg9 : StableHlo.after (hostOps0 (F := F)) W (Proc.devRef .tc main_arg9) = W (Proc.devRef .tc main_arg9) := by not_written hostOps0
theorem keepH0_arg10 : StableHlo.after (hostOps0 (F := F)) W (Proc.devRef .tc main_arg10) = W (Proc.devRef .tc main_arg10) := by not_written hostOps0
theorem keepH0_arg11 : StableHlo.after (hostOps0 (F := F)) W (Proc.devRef .tc main_arg11) = W (Proc.devRef .tc main_arg11) := by not_written hostOps0
theorem keepH0_arg12 : StableHlo.after (hostOps0 (F := F)) W (Proc.devRef .tc main_arg12) = W (Proc.devRef .tc main_arg12) := by not_written hostOps0
theorem keepH0_arg13 : StableHlo.after (hostOps0 (F := F)) W (Proc.devRef .tc main_arg13) = W (Proc.devRef .tc main_arg13) := by not_written hostOps0
theorem keepH0_arg14 : StableHlo.after (hostOps0 (F := F)) W (Proc.devRef .tc main_arg14) = W (Proc.devRef .tc main_arg14) := by not_written hostOps0
theorem keepH0_arg15 : StableHlo.after (hostOps0 (F := F)) W (Proc.devRef .tc main_arg15) = W (Proc.devRef .tc main_arg15) := by not_written hostOps0
theorem keepH0_arg16 : StableHlo.after (hostOps0 (F := F)) W (Proc.devRef .tc main_arg16) = W (Proc.devRef .tc main_arg16) := by not_written hostOps0
theorem keepH0_arg17 : StableHlo.after (hostOps0 (F := F)) W (Proc.devRef .tc main_arg17) = W (Proc.devRef .tc main_arg17) := by not_written hostOps0
theorem keepH0_arg18 : StableHlo.after (hostOps0 (F := F)) W (Proc.devRef .tc main_arg18) = W (Proc.devRef .tc main_arg18) := by not_written hostOps0
theorem keepH0_arg19 : StableHlo.after (hostOps0 (F := F)) W (Proc.devRef .tc main_arg19) = W (Proc.devRef .tc main_arg19) := by not_written hostOps0
theorem keepH1_arg0 : StableHlo.after (hostOps1 (F := F)) W (Proc.devRef .tc main_arg0) = W (Proc.devRef .tc main_arg0) := by not_written hostOps1
theorem keepH1_arg6 : StableHlo.after (hostOps1 (F := F)) W (Proc.devRef .tc main_arg6) = W (Proc.devRef .tc main_arg6) := by not_written hostOps1
theorem keepH1_arg7 : StableHlo.after (hostOps1 (F := F)) W (Proc.devRef .tc main_arg7) = W (Proc.devRef .tc main_arg7) := by not_written hostOps1
theorem keepH1_arg8 : StableHlo.after (hostOps1 (F := F)) W (Proc.devRef .tc main_arg8) = W (Proc.devRef .tc main_arg8) := by not_written hostOps1
theorem keepH1_arg9 : StableHlo.after (hostOps1 (F := F)) W (Proc.devRef .tc main_arg9) = W (Proc.devRef .tc main_arg9) := by not_written hostOps1
theorem keepH1_arg11 : StableHlo.after (hostOps1 (F := F)) W (Proc.devRef .tc main_arg11) = W (Proc.devRef .tc main_arg11) := by not_written hostOps1
theorem keepH1_arg12 : StableHlo.after (hostOps1 (F := F)) W (Proc.devRef .tc main_arg12) = W (Proc.devRef .tc main_arg12) := by not_written hostOps1
theorem keepH1_arg13 : StableHlo.after (hostOps1 (F := F)) W (Proc.devRef .tc main_arg13) = W (Proc.devRef .tc main_arg13) := by not_written hostOps1
theorem keepH1_arg14 : StableHlo.after (hostOps1 (F := F)) W (Proc.devRef .tc main_arg14) = W (Proc.devRef .tc main_arg14) := by not_written hostOps1
theorem keepH1_arg15 : StableHlo.after (hostOps1 (F := F)) W (Proc.devRef .tc main_arg15) = W (Proc.devRef .tc main_arg15) := by not_written hostOps1
theorem keepH1_arg16 : StableHlo.after (hostOps1 (F := F)) W (Proc.devRef .tc main_arg16) = W (Proc.devRef .tc main_arg16) := by not_written hostOps1
theorem keepH1_arg17 : StableHlo.after (hostOps1 (F := F)) W (Proc.devRef .tc main_arg17) = W (Proc.devRef .tc main_arg17) := by not_written hostOps1
theorem keepH1_arg18 : StableHlo.after (hostOps1 (F := F)) W (Proc.devRef .tc main_arg18) = W (Proc.devRef .tc main_arg18) := by not_written hostOps1
theorem keepH1_arg19 : StableHlo.after (hostOps1 (F := F)) W (Proc.devRef .tc main_arg19) = W (Proc.devRef .tc main_arg19) := by not_written hostOps1
theorem keepH2_arg8 : StableHlo.after (hostOps2 (F := F)) W (Proc.devRef .tc main_arg8) = W (Proc.devRef .tc main_arg8) := by not_written hostOps2
theorem keepH2_arg9 : StableHlo.after (hostOps2 (F := F)) W (Proc.devRef .tc main_arg9) = W (Proc.devRef .tc main_arg9) := by not_written hostOps2
theorem keepH2_arg12 : StableHlo.after (hostOps2 (F := F)) W (Proc.devRef .tc main_arg12) = W (Proc.devRef .tc main_arg12) := by not_written hostOps2
theorem keepH2_arg13 : StableHlo.after (hostOps2 (F := F)) W (Proc.devRef .tc main_arg13) = W (Proc.devRef .tc main_arg13) := by not_written hostOps2
theorem keepH2_arg16 : StableHlo.after (hostOps2 (F := F)) W (Proc.devRef .tc main_arg16) = W (Proc.devRef .tc main_arg16) := by not_written hostOps2
theorem keepH2_arg17 : StableHlo.after (hostOps2 (F := F)) W (Proc.devRef .tc main_arg17) = W (Proc.devRef .tc main_arg17) := by not_written hostOps2
theorem keepH2_arg18 : StableHlo.after (hostOps2 (F := F)) W (Proc.devRef .tc main_arg18) = W (Proc.devRef .tc main_arg18) := by not_written hostOps2
theorem keepH2_arg19 : StableHlo.after (hostOps2 (F := F)) W (Proc.devRef .tc main_arg19) = W (Proc.devRef .tc main_arg19) := by not_written hostOps2
theorem keepH3_arg13 : StableHlo.after (hostOps3 (F := F)) W (Proc.devRef .tc main_arg13) = W (Proc.devRef .tc main_arg13) := by not_written hostOps3
theorem keepH3_arg18 : StableHlo.after (hostOps3 (F := F)) W (Proc.devRef .tc main_arg18) = W (Proc.devRef .tc main_arg18) := by not_written hostOps3
theorem keepH3_arg19 : StableHlo.after (hostOps3 (F := F)) W (Proc.devRef .tc main_arg19) = W (Proc.devRef .tc main_arg19) := by not_written hostOps3
theorem keepH1_v21 : StableHlo.after (hostOps1 (F := F)) W (Proc.devRef .tc main_v21) = W (Proc.devRef .tc main_v21) := by not_written hostOps1
theorem keepH2_v21 : StableHlo.after (hostOps2 (F := F)) W (Proc.devRef .tc main_v21) = W (Proc.devRef .tc main_v21) := by not_written hostOps2
theorem keepH2_v43 : StableHlo.after (hostOps2 (F := F)) W (Proc.devRef .tc main_v43) = W (Proc.devRef .tc main_v43) := by not_written hostOps2
theorem keepH3_v43 : StableHlo.after (hostOps3 (F := F)) W (Proc.devRef .tc main_v43) = W (Proc.devRef .tc main_v43) := by not_written hostOps3
theorem keepH3_v65 : StableHlo.after (hostOps3 (F := F)) W (Proc.devRef .tc main_v65) = W (Proc.devRef .tc main_v65) := by not_written hostOps3

end Cert.KernelIdeal.Hand

end
-- ==== Proof.ArgsAt.lean ====
/-
  The argument arrays at every boundary of the idealized kernel program's segments: no host operation and no launched
  region writes one (a region that reads one through an input window hands it back as it found it), so at each boundary
  each still holds its launch contents.
-/
import proofs.«105883_j54863912239638_1_alg».proof.Proof.Gen.KernelIdeal.Frame
import proofs.«105883_j54863912239638_1_alg».proof.Proof.Keep

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

theorem W1_arg0 : W1 m ρ c (Proc.devRef .tc main_arg0) = m ((c : Thread nD τ).loc main_arg0) :=
  (keepH0_arg0 (W0 m ρ c)).trans (rfl)
theorem W2_arg0 : W2 m ρ c (Proc.devRef .tc main_arg0) = m ((c : Thread nD τ).loc main_arg0) :=
  (W2_of_ne m ρ c main_arg0 (by decide)).trans (W1_arg0 m ρ c)
theorem W3_arg0 : W3 m ρ c (Proc.devRef .tc main_arg0) = m ((c : Thread nD τ).loc main_arg0) :=
  (keepH1_arg0 (W2 m ρ c)).trans (W2_arg0 m ρ c)
theorem W1_arg1 : W1 m ρ c (Proc.devRef .tc main_arg1) = m ((c : Thread nD τ).loc main_arg1) :=
  (keepH0_arg1 (W0 m ρ c)).trans (rfl)
theorem W2_arg1 : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_arg1 m ρ c)
theorem W1_arg4 : W1 m ρ c (Proc.devRef .tc main_arg4) = m ((c : Thread nD τ).loc main_arg4) :=
  (keepH0_arg4 (W0 m ρ c)).trans (rfl)
theorem W2_arg4 : W2 m ρ c (Proc.devRef .tc main_arg4) = m ((c : Thread nD τ).loc main_arg4) :=
  (W2_of_ne m ρ c main_arg4 (by decide)).trans (W1_arg4 m ρ c)
theorem W1_arg5 : W1 m ρ c (Proc.devRef .tc main_arg5) = m ((c : Thread nD τ).loc main_arg5) :=
  (keepH0_arg5 (W0 m ρ c)).trans (rfl)
theorem W2_arg5 : W2 m ρ c (Proc.devRef .tc main_arg5) = m ((c : Thread nD τ).loc main_arg5) :=
  (W2_of_ne m ρ c main_arg5 (by decide)).trans (W1_arg5 m ρ c)
theorem W1_arg6 : W1 m ρ c (Proc.devRef .tc main_arg6) = m ((c : Thread nD τ).loc main_arg6) :=
  (keepH0_arg6 (W0 m ρ c)).trans (rfl)
theorem W2_arg6 : W2 m ρ c (Proc.devRef .tc main_arg6) = m ((c : Thread nD τ).loc main_arg6) :=
  (W2_of_ne m ρ c main_arg6 (by decide)).trans (W1_arg6 m ρ c)
theorem W3_arg6 : W3 m ρ c (Proc.devRef .tc main_arg6) = m ((c : Thread nD τ).loc main_arg6) :=
  (keepH1_arg6 (W2 m ρ c)).trans (W2_arg6 m ρ c)
theorem W4_arg6 : W4 m ρ c (Proc.devRef .tc main_arg6) = m ((c : Thread nD τ).loc main_arg6) :=
  (W4_of_ne m ρ c main_arg6 (by decide)).trans (W3_arg6 m ρ c)
theorem W1_arg7 : W1 m ρ c (Proc.devRef .tc main_arg7) = m ((c : Thread nD τ).loc main_arg7) :=
  (keepH0_arg7 (W0 m ρ c)).trans (rfl)
theorem W2_arg7 : W2 m ρ c (Proc.devRef .tc main_arg7) = m ((c : Thread nD τ).loc main_arg7) :=
  (W2_of_ne m ρ c main_arg7 (by decide)).trans (W1_arg7 m ρ c)
theorem W3_arg7 : W3 m ρ c (Proc.devRef .tc main_arg7) = m ((c : Thread nD τ).loc main_arg7) :=
  (keepH1_arg7 (W2 m ρ c)).trans (W2_arg7 m ρ c)
theorem W4_arg7 : W4 m ρ c (Proc.devRef .tc main_arg7) = m ((c : Thread nD τ).loc main_arg7) :=
  (W4_of_ne m ρ c main_arg7 (by decide)).trans (W3_arg7 m ρ c)
theorem W1_arg8 : W1 m ρ c (Proc.devRef .tc main_arg8) = m ((c : Thread nD τ).loc main_arg8) :=
  (keepH0_arg8 (W0 m ρ c)).trans (rfl)
theorem W2_arg8 : W2 m ρ c (Proc.devRef .tc main_arg8) = m ((c : Thread nD τ).loc main_arg8) :=
  (W2_of_ne m ρ c main_arg8 (by decide)).trans (W1_arg8 m ρ c)
theorem W3_arg8 : W3 m ρ c (Proc.devRef .tc main_arg8) = m ((c : Thread nD τ).loc main_arg8) :=
  (keepH1_arg8 (W2 m ρ c)).trans (W2_arg8 m ρ c)
theorem W4_arg8 : W4 m ρ c (Proc.devRef .tc main_arg8) = m ((c : Thread nD τ).loc main_arg8) :=
  (W4_of_ne m ρ c main_arg8 (by decide)).trans (W3_arg8 m ρ c)
theorem W5_arg8 : W5 m ρ c (Proc.devRef .tc main_arg8) = m ((c : Thread nD τ).loc main_arg8) :=
  (keepH2_arg8 (W4 m ρ c)).trans (W4_arg8 m ρ c)
theorem W6_arg8 : W6 m ρ c (Proc.devRef .tc main_arg8) = m ((c : Thread nD τ).loc main_arg8) :=
  (W6_of_ne m ρ c main_arg8 (by decide)).trans (W5_arg8 m ρ c)
theorem W1_arg9 : W1 m ρ c (Proc.devRef .tc main_arg9) = m ((c : Thread nD τ).loc main_arg9) :=
  (keepH0_arg9 (W0 m ρ c)).trans (rfl)
theorem W2_arg9 : W2 m ρ c (Proc.devRef .tc main_arg9) = m ((c : Thread nD τ).loc main_arg9) :=
  (W2_of_ne m ρ c main_arg9 (by decide)).trans (W1_arg9 m ρ c)
theorem W3_arg9 : W3 m ρ c (Proc.devRef .tc main_arg9) = m ((c : Thread nD τ).loc main_arg9) :=
  (keepH1_arg9 (W2 m ρ c)).trans (W2_arg9 m ρ c)
theorem W4_arg9 : W4 m ρ c (Proc.devRef .tc main_arg9) = m ((c : Thread nD τ).loc main_arg9) :=
  (W4_of_ne m ρ c main_arg9 (by decide)).trans (W3_arg9 m ρ c)
theorem W5_arg9 : W5 m ρ c (Proc.devRef .tc main_arg9) = m ((c : Thread nD τ).loc main_arg9) :=
  (keepH2_arg9 (W4 m ρ c)).trans (W4_arg9 m ρ c)
theorem W6_arg9 : W6 m ρ c (Proc.devRef .tc main_arg9) = m ((c : Thread nD τ).loc main_arg9) :=
  (W6_of_ne m ρ c main_arg9 (by decide)).trans (W5_arg9 m ρ c)
theorem W1_arg10 : W1 m ρ c (Proc.devRef .tc main_arg10) = m ((c : Thread nD τ).loc main_arg10) :=
  (keepH0_arg10 (W0 m ρ c)).trans (rfl)
theorem W1_arg11 : W1 m ρ c (Proc.devRef .tc main_arg11) = m ((c : Thread nD τ).loc main_arg11) :=
  (keepH0_arg11 (W0 m ρ c)).trans (rfl)
theorem W2_arg11 : W2 m ρ c (Proc.devRef .tc main_arg11) = m ((c : Thread nD τ).loc main_arg11) :=
  (W2_of_ne m ρ c main_arg11 (by decide)).trans (W1_arg11 m ρ c)
theorem W3_arg11 : W3 m ρ c (Proc.devRef .tc main_arg11) = m ((c : Thread nD τ).loc main_arg11) :=
  (keepH1_arg11 (W2 m ρ c)).trans (W2_arg11 m ρ c)
theorem W1_arg12 : W1 m ρ c (Proc.devRef .tc main_arg12) = m ((c : Thread nD τ).loc main_arg12) :=
  (keepH0_arg12 (W0 m ρ c)).trans (rfl)
theorem W2_arg12 : W2 m ρ c (Proc.devRef .tc main_arg12) = m ((c : Thread nD τ).loc main_arg12) :=
  (W2_of_ne m ρ c main_arg12 (by decide)).trans (W1_arg12 m ρ c)
theorem W3_arg12 : W3 m ρ c (Proc.devRef .tc main_arg12) = m ((c : Thread nD τ).loc main_arg12) :=
  (keepH1_arg12 (W2 m ρ c)).trans (W2_arg12 m ρ c)
theorem W4_arg12 : W4 m ρ c (Proc.devRef .tc main_arg12) = m ((c : Thread nD τ).loc main_arg12) :=
  (W4_of_ne m ρ c main_arg12 (by decide)).trans (W3_arg12 m ρ c)
theorem W5_arg12 : W5 m ρ c (Proc.devRef .tc main_arg12) = m ((c : Thread nD τ).loc main_arg12) :=
  (keepH2_arg12 (W4 m ρ c)).trans (W4_arg12 m ρ c)
theorem W1_arg13 : W1 m ρ c (Proc.devRef .tc main_arg13) = m ((c : Thread nD τ).loc main_arg13) :=
  (keepH0_arg13 (W0 m ρ c)).trans (rfl)
theorem W2_arg13 : W2 m ρ c (Proc.devRef .tc main_arg13) = m ((c : Thread nD τ).loc main_arg13) :=
  (W2_of_ne m ρ c main_arg13 (by decide)).trans (W1_arg13 m ρ c)
theorem W3_arg13 : W3 m ρ c (Proc.devRef .tc main_arg13) = m ((c : Thread nD τ).loc main_arg13) :=
  (keepH1_arg13 (W2 m ρ c)).trans (W2_arg13 m ρ c)
theorem W4_arg13 : W4 m ρ c (Proc.devRef .tc main_arg13) = m ((c : Thread nD τ).loc main_arg13) :=
  (W4_of_ne m ρ c main_arg13 (by decide)).trans (W3_arg13 m ρ c)
theorem W5_arg13 : W5 m ρ c (Proc.devRef .tc main_arg13) = m ((c : Thread nD τ).loc main_arg13) :=
  (keepH2_arg13 (W4 m ρ c)).trans (W4_arg13 m ρ c)
theorem W6_arg13 : W6 m ρ c (Proc.devRef .tc main_arg13) = m ((c : Thread nD τ).loc main_arg13) :=
  (W6_of_ne m ρ c main_arg13 (by decide)).trans (W5_arg13 m ρ c)
theorem W7_arg13 : W7 m ρ c (Proc.devRef .tc main_arg13) = m ((c : Thread nD τ).loc main_arg13) :=
  (keepH3_arg13 (W6 m ρ c)).trans (W6_arg13 m ρ c)
theorem W1_arg14 : W1 m ρ c (Proc.devRef .tc main_arg14) = m ((c : Thread nD τ).loc main_arg14) :=
  (keepH0_arg14 (W0 m ρ c)).trans (rfl)
theorem W2_arg14 : W2 m ρ c (Proc.devRef .tc main_arg14) = m ((c : Thread nD τ).loc main_arg14) :=
  (W2_of_ne m ρ c main_arg14 (by decide)).trans (W1_arg14 m ρ c)
theorem W3_arg14 : W3 m ρ c (Proc.devRef .tc main_arg14) = m ((c : Thread nD τ).loc main_arg14) :=
  (keepH1_arg14 (W2 m ρ c)).trans (W2_arg14 m ρ c)
theorem W4_arg14 : W4 m ρ c (Proc.devRef .tc main_arg14) = m ((c : Thread nD τ).loc main_arg14) :=
  (W4_of_ne m ρ c main_arg14 (by decide)).trans (W3_arg14 m ρ c)
theorem W1_arg15 : W1 m ρ c (Proc.devRef .tc main_arg15) = m ((c : Thread nD τ).loc main_arg15) :=
  (keepH0_arg15 (W0 m ρ c)).trans (rfl)
theorem W2_arg15 : W2 m ρ c (Proc.devRef .tc main_arg15) = m ((c : Thread nD τ).loc main_arg15) :=
  (W2_of_ne m ρ c main_arg15 (by decide)).trans (W1_arg15 m ρ c)
theorem W3_arg15 : W3 m ρ c (Proc.devRef .tc main_arg15) = m ((c : Thread nD τ).loc main_arg15) :=
  (keepH1_arg15 (W2 m ρ c)).trans (W2_arg15 m ρ c)
theorem W4_arg15 : W4 m ρ c (Proc.devRef .tc main_arg15) = m ((c : Thread nD τ).loc main_arg15) :=
  (W4_of_ne m ρ c main_arg15 (by decide)).trans (W3_arg15 m ρ c)
theorem W1_arg16 : W1 m ρ c (Proc.devRef .tc main_arg16) = m ((c : Thread nD τ).loc main_arg16) :=
  (keepH0_arg16 (W0 m ρ c)).trans (rfl)
theorem W2_arg16 : W2 m ρ c (Proc.devRef .tc main_arg16) = m ((c : Thread nD τ).loc main_arg16) :=
  (W2_of_ne m ρ c main_arg16 (by decide)).trans (W1_arg16 m ρ c)
theorem W3_arg16 : W3 m ρ c (Proc.devRef .tc main_arg16) = m ((c : Thread nD τ).loc main_arg16) :=
  (keepH1_arg16 (W2 m ρ c)).trans (W2_arg16 m ρ c)
theorem W4_arg16 : W4 m ρ c (Proc.devRef .tc main_arg16) = m ((c : Thread nD τ).loc main_arg16) :=
  (W4_of_ne m ρ c main_arg16 (by decide)).trans (W3_arg16 m ρ c)
theorem W5_arg16 : W5 m ρ c (Proc.devRef .tc main_arg16) = m ((c : Thread nD τ).loc main_arg16) :=
  (keepH2_arg16 (W4 m ρ c)).trans (W4_arg16 m ρ c)
theorem W6_arg16 : W6 m ρ c (Proc.devRef .tc main_arg16) = m ((c : Thread nD τ).loc main_arg16) :=
  (W6_of_ne m ρ c main_arg16 (by decide)).trans (W5_arg16 m ρ c)
theorem W1_arg17 : W1 m ρ c (Proc.devRef .tc main_arg17) = m ((c : Thread nD τ).loc main_arg17) :=
  (keepH0_arg17 (W0 m ρ c)).trans (rfl)
theorem W2_arg17 : W2 m ρ c (Proc.devRef .tc main_arg17) = m ((c : Thread nD τ).loc main_arg17) :=
  (W2_of_ne m ρ c main_arg17 (by decide)).trans (W1_arg17 m ρ c)
theorem W3_arg17 : W3 m ρ c (Proc.devRef .tc main_arg17) = m ((c : Thread nD τ).loc main_arg17) :=
  (keepH1_arg17 (W2 m ρ c)).trans (W2_arg17 m ρ c)
theorem W4_arg17 : W4 m ρ c (Proc.devRef .tc main_arg17) = m ((c : Thread nD τ).loc main_arg17) :=
  (W4_of_ne m ρ c main_arg17 (by decide)).trans (W3_arg17 m ρ c)
theorem W5_arg17 : W5 m ρ c (Proc.devRef .tc main_arg17) = m ((c : Thread nD τ).loc main_arg17) :=
  (keepH2_arg17 (W4 m ρ c)).trans (W4_arg17 m ρ c)
theorem W6_arg17 : W6 m ρ c (Proc.devRef .tc main_arg17) = m ((c : Thread nD τ).loc main_arg17) :=
  (W6_of_ne m ρ c main_arg17 (by decide)).trans (W5_arg17 m ρ c)
theorem W1_arg18 : W1 m ρ c (Proc.devRef .tc main_arg18) = m ((c : Thread nD τ).loc main_arg18) :=
  (keepH0_arg18 (W0 m ρ c)).trans (rfl)
theorem W2_arg18 : W2 m ρ c (Proc.devRef .tc main_arg18) = m ((c : Thread nD τ).loc main_arg18) :=
  (W2_of_ne m ρ c main_arg18 (by decide)).trans (W1_arg18 m ρ c)
theorem W3_arg18 : W3 m ρ c (Proc.devRef .tc main_arg18) = m ((c : Thread nD τ).loc main_arg18) :=
  (keepH1_arg18 (W2 m ρ c)).trans (W2_arg18 m ρ c)
theorem W4_arg18 : W4 m ρ c (Proc.devRef .tc main_arg18) = m ((c : Thread nD τ).loc main_arg18) :=
  (W4_of_ne m ρ c main_arg18 (by decide)).trans (W3_arg18 m ρ c)
theorem W5_arg18 : W5 m ρ c (Proc.devRef .tc main_arg18) = m ((c : Thread nD τ).loc main_arg18) :=
  (keepH2_arg18 (W4 m ρ c)).trans (W4_arg18 m ρ c)
theorem W6_arg18 : W6 m ρ c (Proc.devRef .tc main_arg18) = m ((c : Thread nD τ).loc main_arg18) :=
  (W6_of_ne m ρ c main_arg18 (by decide)).trans (W5_arg18 m ρ c)
theorem W7_arg18 : W7 m ρ c (Proc.devRef .tc main_arg18) = m ((c : Thread nD τ).loc main_arg18) :=
  (keepH3_arg18 (W6 m ρ c)).trans (W6_arg18 m ρ c)
theorem W8_arg18 : W8 m ρ c (Proc.devRef .tc main_arg18) = m ((c : Thread nD τ).loc main_arg18) :=
  (W8_of_ne m ρ c main_arg18 (by decide)).trans (W7_arg18 m ρ c)
theorem W1_arg19 : W1 m ρ c (Proc.devRef .tc main_arg19) = m ((c : Thread nD τ).loc main_arg19) :=
  (keepH0_arg19 (W0 m ρ c)).trans (rfl)
theorem W2_arg19 : W2 m ρ c (Proc.devRef .tc main_arg19) = m ((c : Thread nD τ).loc main_arg19) :=
  (W2_of_ne m ρ c main_arg19 (by decide)).trans (W1_arg19 m ρ c)
theorem W3_arg19 : W3 m ρ c (Proc.devRef .tc main_arg19) = m ((c : Thread nD τ).loc main_arg19) :=
  (keepH1_arg19 (W2 m ρ c)).trans (W2_arg19 m ρ c)
theorem W4_arg19 : W4 m ρ c (Proc.devRef .tc main_arg19) = m ((c : Thread nD τ).loc main_arg19) :=
  (W4_of_ne m ρ c main_arg19 (by decide)).trans (W3_arg19 m ρ c)
theorem W5_arg19 : W5 m ρ c (Proc.devRef .tc main_arg19) = m ((c : Thread nD τ).loc main_arg19) :=
  (keepH2_arg19 (W4 m ρ c)).trans (W4_arg19 m ρ c)
theorem W6_arg19 : W6 m ρ c (Proc.devRef .tc main_arg19) = m ((c : Thread nD τ).loc main_arg19) :=
  (W6_of_ne m ρ c main_arg19 (by decide)).trans (W5_arg19 m ρ c)
theorem W7_arg19 : W7 m ρ c (Proc.devRef .tc main_arg19) = m ((c : Thread nD τ).loc main_arg19) :=
  (keepH3_arg19 (W6 m ρ c)).trans (W6_arg19 m ρ c)
theorem W8_arg19 : W8 m ρ c (Proc.devRef .tc main_arg19) = m ((c : Thread nD τ).loc main_arg19) :=
  (W8_of_ne m ρ c main_arg19 (by decide)).trans (W7_arg19 m ρ c)

end Cert.KernelIdeal.Hand

end
-- ==== Proof.Spec.lean ====
/-
  The mathematics both programs compute, as pure functions on arrays of extended reals.

  A graph layer's dense step sends a matrix of neighbourhood means `M` and a matrix of the nodes' own features `X`
  (one row per node, 128 columns) to `M · A + X · B + b`, a row at a time: entry (r, j) is
  `(∑ₖ M[r,k]·A[k,j] + ∑ₖ X[r,k]·B[k,j]) + b[j]` (`dense`). The first layer clamps each entry below at zero (`relu`).
  The score of a pair of rows `a`, `b` is their cosine: `(∑ₖ a[k]·b[k]) / (max (√∑ₖ a[k]²) ε · max (√∑ₖ b[k]²) ε)`
  (`cosine`), `ε` the float constant both programs spell with one word.
  Everything is stated for any number of rows `n`, so that one statement serves an array and a block of its rows.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `n` rows and `k` columns, indexed as the programs index their arrays. -/
abbrev Mat (n k : Nat) : Type := (⟨2, ![n, k]⟩ : Shape).Idx → EReal
/-- A vector of extended reals of length `n`. -/
abbrev Vect (n : Nat) : Type := (⟨1, ![n]⟩ : Shape).Idx → EReal

/-- Row `r` of `M` against column `j` of `A`: `∑ₖ M[r,k] · A[k,j]`. -/
def rowcol {n : Nat} (M : Mat n 128) (A : Mat 128 128) (r : Fin n) (j : Fin 128) : EReal :=
  ∑ k : Fin 128, M (ix2 r k) * A (ix2 k j)

/-- The dense step: `(M · A + X · B) + b`, the bias added last. -/
def dense {n : Nat} (M X : Mat n 128) (A : Mat 128 128) (b : Vect 128) (B : Mat 128 128) : Mat n 128 :=
  fun i => (rowcol M A (i 0) (i 1) + rowcol X B (i 0) (i 1)) + b (ix1 (i 1))

/-- Each entry clamped below at zero. -/
def relu {n : Nat} (Z : Mat n 128) : Mat n 128 := fun i => max (Z i) (Ideal.ofBits .f32 0x00000000#32)

/-- `∑ₖ a[r,k] · b[r,k]`: the inner product of row `r` of `a` with row `r` of `b`. -/
def rowdot {n : Nat} (a b : Mat n 128) (r : Fin n) : EReal := ∑ k : Fin 128, a (ix2 r k) * b (ix2 r k)

/-- The cosine of row `r` of `a` and row `r` of `b`, each norm clamped below at `ε`. -/
def cosrow {n : Nat} (a b : Mat n 128) (r : Fin n) : EReal :=
  Ideal.div (rowdot a b r)
    (max (Ideal.sqrt (rowdot a a r)) (Ideal.ofBits .f32 0x322BCC77#32) * max (Ideal.sqrt (rowdot b b r)) (Ideal.ofBits .f32 0x322BCC77#32))

/-- The scores as a vector, one per row. -/
def cosine {n : Nat} (a b : Mat n 128) : Vect n := fun i => cosrow a b (i 0)

/-- The bias may be added before or after the second product: addition of extended reals is commutative and
    associative (no finiteness is needed). -/
theorem add_bias_comm (p q b : EReal) : (p + b) + q = (p + q) + b := add_right_comm p b q

end Cert.Spec

end
-- ==== Proof.HostChain.lean ====
/-
  The host-side steps both programs share, named once, and the reference's whole result as one term over them.

  A layer's neighbourhood mean: gather the source rows an edge list names (an index below zero counts from the end),
  scatter-add them by destination, and divide each destination row by its edge count clamped below at one
  (`meanJ`: users → jobs, `meanU`: jobs → users). `takeU` / `takeJ` gather the rows a list of pairs names.
  `tr` transposes a weight matrix. These are carried as opaque functions: nothing below opens a gather or a scatter.
  The reference's dense step adds the bias before the second product (`refDenseJ`, `refDenseU`), clamps with a
  host `maximum` (`refReluJ`, `refReluU`) and scores pairs with host reductions (`refCos`).
  `refResult` is the reference program's result in these words; `result` is the same network with each dense step,
  clamp and score in the order-free form of the specification.
-/
import proofs.«105883_j54863912239638_1_alg».proof.Proof.Gen.ReferenceIdeal
import proofs.«105883_j54863912239638_1_alg».proof.Proof.Spec

noncomputable section

namespace Cert.Hand

open Cert.ReferenceIdeal Cert.ReferenceIdeal.Gen Idealize.ShloMosaic Idealize.ShloMosaic.TcCoe

abbrev MU := FVec Ideal S50000x128 .f32
abbrev MJ := FVec Ideal S20000x128 .f32
abbrev MW := FVec Ideal S128x128 .f32
abbrev VB := FVec Ideal S128 .f32
abbrev ME := FVec Ideal S100000x128 .f32
abbrev IE := (⟨S500000, .i32⟩ : BufTy).Contents (Elt Ideal)
abbrev IL := (⟨S100000, .i32⟩ : BufTy).Contents (Elt Ideal)

/-- Neighbourhood means of user rows at the jobs: rows of `x` gathered by `src`, summed by `dst`, over the clamped counts. -/
def meanJ (x : MU) (src dst : IE) : MJ :=
  Host.divf (Host.scatterAdd scatter_S20000x128_S500000x1_S500000x128_1_0_0_1 (broadcastInDim S20000x128 ![] bcast_S_S20000x128 (constant S_ .f32 0x00000000#32)) (broadcastInDim S500000x1 ![0] bcast_S500000_S500000x1_0 dst) (Host.gather gather_S50000x128_S500000x1_S500000x128_1_0_n_n_0_1_1128 x (broadcastInDim S500000x1 ![0] bcast_S500000_S500000x1_0 (select (cmpi .slt src (broadcastInDim S500000 ![] bcast_S_S500000 (constantI S_ 32 0#32))) (addi src (broadcastInDim S500000 ![] bcast_S_S500000 (constantI S_ 32 50000#32))) src)))) (broadcastInDim S20000x128 ![0, 1] bcast_S20000x1_S20000x128_0_1 (broadcastInDim S20000x1 ![0] bcast_S20000_S20000x1_0 (maximumf (Host.scatterAdd scatter_S20000_S500000x1_S500000_n_0_0_1 (broadcastInDim S20000 ![] bcast_S_S20000 (constant S_ .f32 0x00000000#32)) (broadcastInDim S500000x1 ![0] bcast_S500000_S500000x1_0 dst) (broadcastInDim S500000 ![] bcast_S_S500000 (constant S_ .f32 0x3F800000#32))) (broadcastInDim S20000 ![] bcast_S_S20000 (constant S_ .f32 0x3F800000#32)))))

/-- Neighbourhood means of job rows at the users. -/
def meanU (x : MJ) (src dst : IE) : MU :=
  Host.divf (Host.scatterAdd scatter_S50000x128_S500000x1_S500000x128_1_0_0_1 (broadcastInDim S50000x128 ![] bcast_S_S50000x128 (constant S_ .f32 0x00000000#32)) (broadcastInDim S500000x1 ![0] bcast_S500000_S500000x1_0 dst) (Host.gather gather_S20000x128_S500000x1_S500000x128_1_0_n_n_0_1_1128 x (broadcastInDim S500000x1 ![0] bcast_S500000_S500000x1_0 (select (cmpi .slt src (broadcastInDim S500000 ![] bcast_S_S500000 (constantI S_ 32 0#32))) (addi src (broadcastInDim S500000 ![] bcast_S_S500000 (constantI S_ 32 20000#32))) src)))) (broadcastInDim S50000x128 ![0, 1] bcast_S50000x1_S50000x128_0_1 (broadcastInDim S50000x1 ![0] bcast_S50000_S50000x1_0 (maximumf (Host.scatterAdd scatter_S50000_S500000x1_S500000_n_0_0_1 (broadcastInDim S50000 ![] bcast_S_S50000 (constant S_ .f32 0x00000000#32)) (broadcastInDim S500000x1 ![0] bcast_S500000_S500000x1_0 dst) (broadcastInDim S500000 ![] bcast_S_S500000 (constant S_ .f32 0x3F800000#32))) (broadcastInDim S50000 ![] bcast_S_S50000 (constant S_ .f32 0x3F800000#32)))))

/-- The user rows a list of pairs names. -/
def takeU (z : MU) (idx : IL) : ME :=
  Host.gather gather_S50000x128_S100000x1_S100000x128_1_0_n_n_0_1_1128 z (broadcastInDim S100000x1 ![0] bcast_S100000_S100000x1_0 (select (cmpi .slt idx (broadcastInDim S100000 ![] bcast_S_S100000 (constantI S_ 32 0#32))) (addi idx (broadcastInDim S100000 ![] bcast_S_S100000 (constantI S_ 32 50000#32))) idx))

/-- The job rows a list of pairs names. -/
def takeJ (z : MJ) (idx : IL) : ME :=
  Host.gather gather_S20000x128_S100000x1_S100000x128_1_0_n_n_0_1_1128 z (broadcastInDim S100000x1 ![0] bcast_S100000_S100000x1_0 (select (cmpi .slt idx (broadcastInDim S100000 ![] bcast_S_S100000 (constantI S_ 32 0#32))) (addi idx (broadcastInDim S100000 ![] bcast_S_S100000 (constantI S_ 32 20000#32))) idx))

/-- A weight matrix transposed. -/
def tr (w : MW) : MW := transpose S128x128 [1, 0] w transposes_S128x128_S128x128_1_0

/-- The reference's dense step at the jobs: the bias joins the first product, then the second product is added. -/
def refDenseJ (M X : MJ) (A : MW) (b : VB) (B : MW) : MJ :=
  addf (addf (Host.dotGeneral dot_S20000x128_S128x128_S20000x128_1_0_0_1_n_n none M A) (broadcastInDim S20000x128 ![0, 1] bcast_S1x128_S20000x128_0_1 (broadcastInDim S1x128 ![1] bcast_S128_S1x128_1 b))) (Host.dotGeneral dot_S20000x128_S128x128_S20000x128_1_0_0_1_n_n none X B)

/-- The reference's dense step at the users. -/
def refDenseU (M X : MU) (A : MW) (b : VB) (B : MW) : MU :=
  addf (addf (Host.dotGeneral dot_S50000x128_S128x128_S50000x128_1_0_0_1_n_n none M A) (broadcastInDim S50000x128 ![0, 1] bcast_S1x128_S50000x128_0_1 (broadcastInDim S1x128 ![1] bcast_S128_S1x128_1 b))) (Host.dotGeneral dot_S50000x128_S128x128_S50000x128_1_0_0_1_n_n none X B)

/-- The reference's clamp at zero, at the jobs. -/
def refReluJ (Z : MJ) : MJ := maximumf Z (broadcastInDim S20000x128 ![] bcast_S_S20000x128 (constant S_ .f32 0x00000000#32))

/-- The reference's clamp at zero, at the users. -/
def refReluU (Z : MU) : MU := maximumf Z (broadcastInDim S50000x128 ![] bcast_S_S50000x128 (constant S_ .f32 0x00000000#32))

/-- The reference's scores: the rows' inner products over the product of their clamped norms. -/
def refCos (a b : ME) : FVec Ideal S100000 .f32 :=
  Host.divf (Host.reduceAdd (mulf a b) (constant S_ .f32 0x00000000#32) reducesTo_S100000x128_S100000_d1 h_S_) (mulf (maximumf (Host.sqrt (Host.reduceAdd (mulf a a) (constant S_ .f32 0x00000000#32) reducesTo_S100000x128_S100000_d1 h_S_)) (broadcastInDim S100000 ![] bcast_S_S100000 (constant S_ .f32 0x322BCC77#32))) (maximumf (Host.sqrt (Host.reduceAdd (mulf b b) (constant S_ .f32 0x00000000#32) reducesTo_S100000x128_S100000_d1 h_S_)) (broadcastInDim S100000 ![] bcast_S_S100000 (constant S_ .f32 0x322BCC77#32))))

/-- The reference's result in these words: two clamped layers, one plain layer, the scores of the named pairs. -/
def refResult (xu : MU) (xj : MJ) (w2 w3 w4 w5 w6 w7 w8 w9 : MW) (b10 b11 b12 b13 : VB) (s14 d15 s16 d17 : IE) (eu ej : IL) : FVec Ideal S100000 .f32 :=
  let hJ := refReluJ (refDenseJ (meanJ xu s14 d15) xj (tr w2) b10 (tr w3))
  let hU := refReluU (refDenseU (meanU xj s16 d17) xu (tr w4) b11 (tr w5))
  let zU := refDenseU (meanU hJ s16 d17) hU (tr w8) b13 (tr w9)
  let zJ := refDenseJ (meanJ hU s14 d15) hJ (tr w6) b12 (tr w7)
  refCos (takeU zU eu) (takeJ zJ ej)

/-- The same network with every dense step, clamp and score in the specification's form. -/
def result (xu : MU) (xj : MJ) (w2 w3 w4 w5 w6 w7 w8 w9 : MW) (b10 b11 b12 b13 : VB) (s14 d15 s16 d17 : IE) (eu ej : IL) : FVec Ideal S100000 .f32 :=
  let hJ : MJ := Spec.relu (Spec.dense (meanJ xu s14 d15) xj (tr w2) b10 (tr w3))
  let hU : MU := Spec.relu (Spec.dense (meanU xj s16 d17) xu (tr w4) b11 (tr w5))
  let zU : MU := Spec.dense (meanU hJ s16 d17) hU (tr w8) b13 (tr w9)
  let zJ : MJ := Spec.dense (meanJ hU s14 d15) hJ (tr w6) b12 (tr w7)
  Spec.cosine (takeU zU eu) (takeJ zJ ej)

end Cert.Hand

end
-- ==== Proof.HostOut.lean ====
/-
  What each stretch of host operations of the idealized kernel program leaves in the buffers the launched regions read,
  as the shared host steps of the arrays it starts from — for ANY contents `W` of the buffers at the stretch's start:
  the neighbourhood means, the transposed weights, the gathered rows of the scored pairs, and the last reshape of the
  scores' column to a vector.
-/
import proofs.«105883_j54863912239638_1_alg».proof.Proof.Gen.KernelIdeal.Launch
import proofs.«105883_j54863912239638_1_alg».proof.Proof.HostChain
import Idealize.ShloMosaic.Lib.StableHlo.Run
set_option maxRecDepth 16384

noncomputable section

namespace Cert.KernelIdeal.Hand

open Cert.KernelIdeal Cert.KernelIdeal.Gen Idealize.ShloMosaic Idealize.ShloMosaic.TcCoe Idealize.SL.Sem

open Idealize.ShloMosaic.StableHlo

variable (W : Valuation τ sig (Elt Ideal))

/-! Before region 0: the means of the users' rows at the jobs, and the first layer's job weights transposed. -/
theorem host0_v18 : StableHlo.after (hostOps0 (F := Ideal)) W (Proc.devRef .tc main_v18) = Cert.Hand.meanJ (W (Proc.devRef .tc main_arg0)) (W (Proc.devRef .tc main_arg14)) (W (Proc.devRef .tc main_arg15)) := by
  after_results_simp <;> rfl
theorem host0_v19 : StableHlo.after (hostOps0 (F := Ideal)) W (Proc.devRef .tc main_v19) = Cert.Hand.tr (W (Proc.devRef .tc main_arg2)) := by
  after_results_simp <;> rfl
theorem host0_v20 : StableHlo.after (hostOps0 (F := Ideal)) W (Proc.devRef .tc main_v20) = Cert.Hand.tr (W (Proc.devRef .tc main_arg3)) := by
  after_results_simp <;> rfl

/-! Before region 1: the means of the jobs' rows at the users, and the first layer's user weights. -/
theorem host1_v40 : StableHlo.after (hostOps1 (F := Ideal)) W (Proc.devRef .tc main_v40) = Cert.Hand.meanU (W (Proc.devRef .tc main_arg1)) (W (Proc.devRef .tc main_arg16)) (W (Proc.devRef .tc main_arg17)) := by
  after_results_simp <;> rfl
theorem host1_v41 : StableHlo.after (hostOps1 (F := Ideal)) W (Proc.devRef .tc main_v41) = Cert.Hand.tr (W (Proc.devRef .tc main_arg4)) := by
  after_results_simp <;> rfl
theorem host1_v42 : StableHlo.after (hostOps1 (F := Ideal)) W (Proc.devRef .tc main_v42) = Cert.Hand.tr (W (Proc.devRef .tc main_arg5)) := by
  after_results_simp <;> rfl

/-! Before region 2: the means of the users' hidden rows (region 1's result) at the jobs, and the second layer's job weights. -/
theorem host2_v62 : StableHlo.after (hostOps2 (F := Ideal)) W (Proc.devRef .tc main_v62) = Cert.Hand.meanJ (W (Proc.devRef .tc main_v43)) (W (Proc.devRef .tc main_arg14)) (W (Proc.devRef .tc main_arg15)) := by
  after_results_simp <;> rfl
theorem host2_v63 : StableHlo.after (hostOps2 (F := Ideal)) W (Proc.devRef .tc main_v63) = Cert.Hand.tr (W (Proc.devRef .tc main_arg6)) := by
  after_results_simp <;> rfl
theorem host2_v64 : StableHlo.after (hostOps2 (F := Ideal)) W (Proc.devRef .tc main_v64) = Cert.Hand.tr (W (Proc.devRef .tc main_arg7)) := by
  after_results_simp <;> rfl

/-! Before region 3: the means of the jobs' hidden rows (region 0's result) at the users, and the second layer's user weights. -/
theorem host3_v84 : StableHlo.after (hostOps3 (F := Ideal)) W (Proc.devRef .tc main_v84) = Cert.Hand.meanU (W (Proc.devRef .tc main_v21)) (W (Proc.devRef .tc main_arg16)) (W (Proc.devRef .tc main_arg17)) := by
  after_results_simp <;> rfl
theorem host3_v85 : StableHlo.after (hostOps3 (F := Ideal)) W (Proc.devRef .tc main_v85) = Cert.Hand.tr (W (Proc.devRef .tc main_arg8)) := by
  after_results_simp <;> rfl
theorem host3_v86 : StableHlo.after (hostOps3 (F := Ideal)) W (Proc.devRef .tc main_v86) = Cert.Hand.tr (W (Proc.devRef .tc main_arg9)) := by
  after_results_simp <;> rfl

/-! Before region 4: the rows of the two embeddings (regions 3 and 2's results) that the scored pairs name. -/
theorem host4_v94 : StableHlo.after (hostOps4 (F := Ideal)) W (Proc.devRef .tc main_v94) = Cert.Hand.takeU (W (Proc.devRef .tc main_v87)) (W (Proc.devRef .tc main_arg18)) := by
  after_results_simp <;> rfl
theorem host4_v101 : StableHlo.after (hostOps4 (F := Ideal)) W (Proc.devRef .tc main_v101) = Cert.Hand.takeJ (W (Proc.devRef .tc main_v65)) (W (Proc.devRef .tc main_arg19)) := by
  after_results_simp <;> rfl

/-! After region 4: the scores' column recast as a vector. -/
theorem host5_v103 : StableHlo.after (hostOps5 (F := Ideal)) W (Proc.devRef .tc main_v103) = shapeCast S100000 (W (Proc.devRef .tc main_v102)) shapeCasts_S100000x1_S100000 := by
  after_results_simp <;> rfl

end Cert.KernelIdeal.Hand

end
-- ==== Proof.CosPay.lean ====
/-
  The cosine body's arithmetic, read at one row of a block of 2000 rows.

  The body forms three row sums over the 128 columns — the inner product of the two rows and each row's squared
  norm —, writes each as a one-column matrix, takes the square roots of the two norms, clamps each below at ε, and
  divides the inner product by the product of the clamped norms. At row p this is the cosine of row p of the first
  block and row p of the second.
-/
import proofs.«105883_j54863912239638_1_alg».proof.Proof.Spec
import proofs.«105883_j54863912239638_1_alg».proof.Proof.Gen.KernelIdeal.Skeleton
import Idealize.ShloMosaic.Lib.ValueLayout

noncomputable section

namespace Cert.KernelIdeal.CosValue

open Cert.KernelIdeal Cert.KernelIdeal.Gen Idealize.ShloMosaic Idealize.ShloMosaic.ValueIdx

/-- A vector of length n written as an n × 1 matrix reads, at (p, q), the vector at p: both sit at row-major
    position p, the column index q being 0. -/
theorem shapeCast_a_a1_apply {α : Type} {n : Nat} (x : (⟨1, ![n]⟩ : Shape).Idx → α)
    (h : (⟨1, ![n]⟩ : Shape).ShapeCasts ⟨2, ![n, 1]⟩) (p : Fin n) (q : Fin 1) :
    shapeCast ⟨2, ![n, 1]⟩ x h (ix2 p q) = x (ix1 p) :=
  shapeCast_apply x h (ix2 p q) (ix1 p) (by
    rw [Shape.rowMajor_val_two, Shape.rowMajor_val_one]
    show p.val = p.val * 1 + q.val
    have := q.isLt; omega)

/-- The sum over the columns of the entrywise product of two blocks, at row p: `∑ₖ a[p,k] · b[p,k]`. -/
theorem laneSum_apply (a b : FVec Ideal S2000x128 .f32) (p : Fin 2000) :
    multiReduction (F := Ideal) .add [1] S2000 (mulf a b) 0x00000000#32 reduces_S2000x128_S2000 (.inl rfl) rfl (ix1 p)
      = ∑ k : Fin 128, a (ix2 p k) * b (ix2 p k) := by
  refine (Ideal.multiReduction_add_single (mulf a b) _ reduces_S2000x128_S2000 (.inl rfl) rfl (ix1 p)).trans ?_
  refine Finset.sum_congr rfl fun k _ => ?_
  -- the row index p with the column k put back on the summed axis is (p, k)
  have e : reduces_S2000x128_S2000.lift (ix1 p) k = ix2 p k := by
    funext a; apply Fin.ext
    match a with
    | ⟨0, _⟩ => rfl
    | ⟨1, _⟩ => rfl
  exact congrArg (fun i => a i * b i) e

/-- The body's result as one function of the index: the quotient of the inner products' column by the product of
    the two clamped norms' columns (the shape casts of a block to its own shape are the identity; every other
    operation is entrywise). -/
theorem pay_eq (x0 x1 : Vec Ideal S2000x128 .f32) :
    k4_pay1 x0 x1 = fun i =>
      Ideal.div
        (shapeCast S2000x1 (multiReduction (F := Ideal) .add [1] S2000 (mulf x0 x1) 0x00000000#32 reduces_S2000x128_S2000 (.inl rfl) rfl) shapeCasts_S2000_S2000x1 i)
        (max (Ideal.sqrt (shapeCast S2000x1 (multiReduction (F := Ideal) .add [1] S2000 (mulf x0 x0) 0x00000000#32 reduces_S2000x128_S2000 (.inl rfl) rfl) shapeCasts_S2000_S2000x1 i)) (Ideal.ofBits .f32 0x322BCC77#32)
          * max (Ideal.sqrt (shapeCast S2000x1 (multiReduction (F := Ideal) .add [1] S2000 (mulf x1 x1) 0x00000000#32 reduces_S2000x128_S2000 (.inl rfl) rfl) shapeCasts_S2000_S2000x1 i)) (Ideal.ofBits .f32 0x322BCC77#32)) := by
  unfold k4_pay1
  rw [shapeCast_self, shapeCast_self]
  rfl

/-- THE BODY AT A ROW: entry (p, 0) of the body's 2000 × 1 result is the cosine of row p of the first block and
    row p of the second. -/
theorem pay (x0 x1 : Vec Ideal S2000x128 .f32) (p : Fin 2000) :
    k4_pay1 x0 x1 (ix2 p 0) = Cert.Spec.cosrow x0 x1 p := by
  rw [pay_eq]
  show Ideal.div _ _ = _
  rw [shapeCast_a_a1_apply, shapeCast_a_a1_apply, shapeCast_a_a1_apply, laneSum_apply, laneSum_apply, laneSum_apply]
  rfl

end Cert.KernelIdeal.CosValue

end
-- ==== Proof.Cos4.lean ====
/-
  The cosine region's result array, entry by entry.

  The region walks 50 points; at point t it stages rows 2000·t … 2000·t + 1999 of the two 100000 × 128 operands,
  computes the cosine of each pair of rows, and writes the 2000 × 1 column of results back to rows
  2000·t … 2000·t + 1999 of the 100000 × 1 result. The blocks tile the result (row r belongs to point r / 2000),
  so entry (r, 0) of the result is the cosine of row r of the first operand and row r of the second.
-/
import proofs.«105883_j54863912239638_1_alg».proof.Proof.CosPay
import proofs.«105883_j54863912239638_1_alg».proof.Proof.Gen.KernelIdeal.Frame
import Idealize.ShloMosaic.Lib.Pipeline.Value

noncomputable section

namespace Cert.KernelIdeal.CosValue

open Cert.KernelIdeal Cert.KernelIdeal.Gen Idealize.ShloMosaic Idealize.ShloMosaic.TcCoe Idealize.SL.Sem
open Idealize.ShloMosaic.ValueIdx
open Idealize.ShloMosaic.Pipeline (Dat)

/-- The cosine of a pair of rows depends only on the two rows' entries. -/
theorem cosrow_congr {n n' : Nat} (a b : Cert.Spec.Mat n 128) (a' b' : Cert.Spec.Mat n' 128) (r : Fin n) (r' : Fin n')
    (ha : ∀ k : Fin 128, a (ix2 r k) = a' (ix2 r' k)) (hb : ∀ k : Fin 128, b (ix2 r k) = b' (ix2 r' k)) :
    Cert.Spec.cosrow a b r = Cert.Spec.cosrow a' b' r' := by
  unfold Cert.Spec.cosrow Cert.Spec.rowdot
  simp only [ha, hb]

section Region

variable (V : (c : Dev nD) → (b : Ref sig .tc) → Buf (Elt Ideal) ((c : Thread nD τ).loc b))

theorem hz : (![0, 0] : Fin 2 → Nat) = fun _ => 0 := funext fun a => by fin_cases a <;> rfl

/-- The result array: entry (r, 0) is the cosine of row r of the first operand and row r of the second. -/
abbrev G (c : Dev nD) : S100000x1.Idx → Elt Ideal .f32 :=
  fun i => Cert.Spec.cosrow (V c main_v94) (V c main_v101) (i 0)

/-- At point t every window's block is block (t, 0) of its array. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The grid has 50 points. -/
theorem lt50 (t : Fin cfg4.N) : t.val < 50 := lt_of_lt_of_eq t.isLt N_4

/-- Row p of the block staged at point t is row 2000·t + p of the array. -/
def rowOf (t : Fin cfg4.N) (p : Fin 2000) : Fin 100000 := ⟨2000 * t.val + p.val, by have := lt50 t; omega⟩

/-- The first operand's block at point t, at (p, k): the operand at (2000·t + p, k). -/
theorem blk0_apply (c : Dev nD) (t : Fin cfg4.N) (p : Fin 2000) (k : Fin 128) :
    iblk4 V c 0 t (ix2 p k) = V c main_v94 (ix2 (rowOf t p) k) := by
  obtain ⟨e0, e1, -, -, -, -⟩ := idx_facts t
  unfold iblk4
  show V c main_v94 (((cfg4.win 0).blk t).view.emb (ix2 p k)) = _
  refine congrArg _ (funext fun a => Fin.ext ?_)
  match a with
  | ⟨0, _⟩ => show win4_0.index t (0 : Fin 2) * 2000 + 1 * p.val = 2000 * t.val + p.val; omega
  | ⟨1, _⟩ => show win4_0.index t (1 : Fin 2) * 128 + 1 * k.val = k.val; omega

/-- The second operand's block at point t, at (p, k): the operand at (2000·t + p, k). -/
theorem blk1_apply (c : Dev nD) (t : Fin cfg4.N) (p : Fin 2000) (k : Fin 128) :
    iblk4 V c 1 t (ix2 p k) = V c main_v101 (ix2 (rowOf t p) k) := by
  obtain ⟨-, -, e0, e1, -, -⟩ := idx_facts t
  unfold iblk4
  show V c main_v101 (((cfg4.win 1).blk t).view.emb (ix2 p k)) = _
  refine congrArg _ (funext fun a => Fin.ext ?_)
  match a with
  | ⟨0, _⟩ => show win4_1.index t (0 : Fin 2) * 2000 + 1 * p.val = 2000 * t.val + p.val; omega
  | ⟨1, _⟩ => show win4_1.index t (1 : Fin 2) * 128 + 1 * k.val = k.val; omega

/-- WHAT POINT t WRITES BACK is block t of the result array `G`. -/
theorem flushed_eq (c : Dev nD) (t : Fin cfg4.N) :
    (dat4 (F := Ideal) V c).flushed 2 t = ((cfg4.win 2).blk t).view.read (Elt Ideal) (G V c) := by
  show (cfg4.win 2).cut (grid4.coords t) ((dat4 (F := Ideal) V c).after 2 t) = _
  rw [after4_2]
  unfold out4_2
  rw [View.canon_unit_zero hz]
  simp only [View.ld_unit_zero (S := S2000x128) hz]
  obtain ⟨-, -, -, -, e0, e1⟩ := idx_facts t
  refine funext fun (j : S2000x1.Idx) => ?_
  -- the block's column index is 0
  have hj : j = ix2 (j 0) 0 := by
    funext a
    match a with
    | ⟨0, _⟩ => rfl
    | ⟨1, _⟩ => exact Fin.ext (by have h1 : (j 1).val < 1 := (j 1).isLt; show (j 1).val = 0; omega)
  show k4_pay1 (iblk4 V c 0 t) (iblk4 V c 1 t) j
    = Cert.Spec.cosrow (V c main_v94) (V c main_v101) ((((cfg4.win 2).blk t).view.emb j) 0)
  refine (congrArg (k4_pay1 (iblk4 V c 0 t) (iblk4 V c 1 t)) hj).trans ?_
  refine (pay _ _ (j 0)).trans ?_
  -- row (j 0) of the output block at point t is row 2000·t + (j 0) of the result
  have hrow : (((cfg4.win 2).blk t).view.emb j) 0 = rowOf t (j 0) := by
    apply Fin.ext
    show win4_2.index t (0 : Fin 2) * 2000 + 1 * (j 0).val = 2000 * t.val + (j 0).val
    omega
  rw [hrow]
  exact cosrow_congr _ _ _ _ _ _ (fun k => blk0_apply V c t (j 0) k) (fun k => blk1_apply V c t (j 0) k)

/-- An index of the result array is in point t's block iff each coordinate is in the block's range on its axis. -/
theorem mem_blk (t : Fin cfg4.N) (i : S100000x1.Idx) :
    i ∈ ((cfg4.win 2).blk t).view.set ↔ ∀ a : Fin 2, win4_2.index t a * S2000x1.size a ≤ (i a).val ∧ (i a).val < win4_2.index t a * S2000x1.size a + S2000x1.size a := by
  show i ∈ ((View.whole main_v102).slice (win4_2.rect t)).set ↔ _
  rw [View.set_slice_whole, Rect.mem_set_unit]
  exact Iff.rfl

/-- The blocks tile the result: row r is in the block of point r / 2000. -/
theorem cover (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  have hN : (i 0).val / 2000 < cfg4.N := by
    show _ < grid4.N
    rw [N_4]; omega
  obtain ⟨-, -, -, -, e0, e1⟩ := idx_facts ⟨(i 0).val / 2000, hN⟩
  refine ⟨⟨(i 0).val / 2000, hN⟩, flush4_2 _, ?_⟩
  rw [mem_blk]
  intro a
  match a with
  | ⟨0, _⟩ =>
    show win4_2.index ⟨(i 0).val / 2000, hN⟩ (0 : Fin 2) * 2000 ≤ (i 0).val ∧ (i 0).val < win4_2.index ⟨(i 0).val / 2000, hN⟩ (0 : Fin 2) * 2000 + 2000
    have e0' : win4_2.index ⟨(i 0).val / 2000, hN⟩ (0 : Fin 2) = (i 0).val / 2000 := e0
    omega
  | ⟨1, _⟩ =>
    show win4_2.index ⟨(i 0).val / 2000, hN⟩ (1 : Fin 2) * 1 ≤ (i 1).val ∧ (i 1).val < win4_2.index ⟨(i 0).val / 2000, hN⟩ (1 : Fin 2) * 1 + 1
    omega

end Region

/-- THE RESULT ARRAY after the region: entry (r, 0) is the cosine of row r of the first operand and row r of the
    second. -/
theorem arr4 (V : (c : Dev nD) → (b : Ref sig .tc) → Buf (Elt Ideal) ((c : Thread nD τ).loc b)) (c : Dev nD) :
    (dat4 (F := Ideal) V c).arrAt 2 cfg4.N = (fun i => Cert.Spec.cosrow (V c main_v94) (V c main_v101) (i 0)) :=
  (dat4 (F := Ideal) V c).arrAt_eq_of_cover 2 (G V c) (fun t _ => flushed_eq V c t) cover

end Cert.KernelIdeal.CosValue

end
-- ==== Proof.Fold.lean ====
/-
  The idealized kernel program's result, boundary by boundary. Between launch and return the buffers pass eleven
  boundaries (a stretch of host operations, a launched region, a stretch, …). At each, the buffers a later step reads
  hold a known function of the launch contents: the host steps of `Cert.Hand` of the arrays before them, and after a
  region its result array at the specification's dense step (clamped in the first layer) or cosine of the region's input
  arrays — the per-region facts `H0 … H3` (hypotheses here, proved for each region from its body and its blocks) and the
  cosine region's. Chained, the result array ends at `Cert.Hand.result` of the argument arrays.
-/
import proofs.«105883_j54863912239638_1_alg».proof.Proof.Gen.KernelIdeal.Frame
import proofs.«105883_j54863912239638_1_alg».proof.Proof.ArgsAt
import proofs.«105883_j54863912239638_1_alg».proof.Proof.HostOut
import proofs.«105883_j54863912239638_1_alg».proof.Proof.Cos4
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.Hand (meanJ meanU takeJ takeU tr MJ MU ME)

/-- A column of `n` entries recast as a vector reads, at `r`, the column's entry `(r, 0)`: the two have the same
    row-major position. -/
theorem col_to_vec {n : Nat} (x : (⟨2, ![n, 1]⟩ : Shape).Idx → EReal) (h : (⟨2, ![n, 1]⟩ : Shape).ShapeCasts ⟨1, ![n]⟩) (r : Fin n) :
    shapeCast ⟨1, ![n]⟩ x h (ix1 r) = x (ix2 r (0 : Fin 1)) :=
  shapeCast_apply x h _ _ (by
    rw [Shape.rowMajor_val_two, Shape.rowMajor_val_one]
    show r.val * 1 + 0 = r.val
    omega)

variable (m : (ℓ : Loc nD τ sig) → Buf (Elt Ideal) ℓ) (ρ : Dev nD → PrngReg) (c : Dev nD)

/-- The jobs' hidden rows: the first layer at the jobs, clamped. -/
def hJ : MJ := Cert.Spec.relu (Cert.Spec.dense (meanJ (m ((c : Thread nD τ).loc main_arg0)) (m ((c : Thread nD τ).loc main_arg14)) (m ((c : Thread nD τ).loc main_arg15))) (m ((c : Thread nD τ).loc main_arg1)) (tr (m ((c : Thread nD τ).loc main_arg2))) (m ((c : Thread nD τ).loc main_arg10)) (tr (m ((c : Thread nD τ).loc main_arg3))))
/-- The users' hidden rows: the first layer at the users, clamped. -/
def hU : MU := Cert.Spec.relu (Cert.Spec.dense (meanU (m ((c : Thread nD τ).loc main_arg1)) (m ((c : Thread nD τ).loc main_arg16)) (m ((c : Thread nD τ).loc main_arg17))) (m ((c : Thread nD τ).loc main_arg0)) (tr (m ((c : Thread nD τ).loc main_arg4))) (m ((c : Thread nD τ).loc main_arg11)) (tr (m ((c : Thread nD τ).loc main_arg5))))
/-- The jobs' embeddings: the second layer at the jobs. -/
def zJ : MJ := Cert.Spec.dense (meanJ (hU m c) (m ((c : Thread nD τ).loc main_arg14)) (m ((c : Thread nD τ).loc main_arg15))) (hJ m c) (tr (m ((c : Thread nD τ).loc main_arg6))) (m ((c : Thread nD τ).loc main_arg12)) (tr (m ((c : Thread nD τ).loc main_arg7)))
/-- The users' embeddings: the second layer at the users. -/
def zU : MU := Cert.Spec.dense (meanU (hJ m c) (m ((c : Thread nD τ).loc main_arg16)) (m ((c : Thread nD τ).loc main_arg17))) (hU m c) (tr (m ((c : Thread nD τ).loc main_arg8))) (m ((c : Thread nD τ).loc main_arg13)) (tr (m ((c : Thread nD τ).loc main_arg9)))

section
variable (H0 : ∀ (V : (c : Dev nD) → (b : Ref sig .tc) → Buf (Elt Ideal) ((c : Thread nD τ).loc b)) (c : Dev nD),
    (dat0 (F := Ideal) V c).arrAt 5 cfg0.N = Cert.Spec.relu (Cert.Spec.dense (V c main_v18) (V c main_arg1) (V c main_v19) (V c main_arg10) (V c main_v20)))
variable (H1 : ∀ (V : (c : Dev nD) → (b : Ref sig .tc) → Buf (Elt Ideal) ((c : Thread nD τ).loc b)) (c : Dev nD),
    (dat1 (F := Ideal) V c).arrAt 5 cfg1.N = Cert.Spec.relu (Cert.Spec.dense (V c main_v40) (V c main_arg0) (V c main_v41) (V c main_arg11) (V c main_v42)))
variable (H2 : ∀ (V : (c : Dev nD) → (b : Ref sig .tc) → Buf (Elt Ideal) ((c : Thread nD τ).loc b)) (c : Dev nD),
    (dat2 (F := Ideal) V c).arrAt 5 cfg2.N = Cert.Spec.dense (V c main_v62) (V c main_v21) (V c main_v63) (V c main_arg12) (V c main_v64))
variable (H3 : ∀ (V : (c : Dev nD) → (b : Ref sig .tc) → Buf (Elt Ideal) ((c : Thread nD τ).loc b)) (c : Dev nD),
    (dat3 (F := Ideal) V c).arrAt 5 cfg3.N = Cert.Spec.dense (V c main_v84) (V c main_v43) (V c main_v85) (V c main_arg13) (V c main_v86))

/-! ### Region 0: the jobs' hidden rows -/

theorem W1_v18 : W1 m ρ c (Proc.devRef .tc main_v18) = meanJ (m ((c : Thread nD τ).loc main_arg0)) (m ((c : Thread nD τ).loc main_arg14)) (m ((c : Thread nD τ).loc main_arg15)) := host0_v18 (W0 m ρ c)
theorem W1_v19 : W1 m ρ c (Proc.devRef .tc main_v19) = tr (m ((c : Thread nD τ).loc main_arg2)) := host0_v19 (W0 m ρ c)
theorem W1_v20 : W1 m ρ c (Proc.devRef .tc main_v20) = tr (m ((c : Thread nD τ).loc main_arg3)) := host0_v20 (W0 m ρ c)

include H0 in
theorem W2_v21 : W2 m ρ c (Proc.devRef .tc main_v21) = hJ m c := by
  refine (W2_arr m ρ c 5).trans ((H0 (V1 m ρ) c).trans ?_)
  rw [show V1 m ρ c main_v18 = _ from W1_v18 m ρ c, show V1 m ρ c main_arg1 = _ from W1_arg1 m ρ c,
    show V1 m ρ c main_v19 = _ from W1_v19 m ρ c, show V1 m ρ c main_arg10 = _ from W1_arg10 m ρ c,
    show V1 m ρ c main_v20 = _ from W1_v20 m ρ c]
  rfl

/-! ### Region 1: the users' hidden rows -/

theorem W3_v40 : W3 m ρ c (Proc.devRef .tc main_v40) = meanU (m ((c : Thread nD τ).loc main_arg1)) (m ((c : Thread nD τ).loc main_arg16)) (m ((c : Thread nD τ).loc main_arg17)) :=
  (host1_v40 (W2 m ρ c)).trans (by rw [W2_arg1 m ρ c, W2_arg16 m ρ c, W2_arg17 m ρ c])
theorem W3_v41 : W3 m ρ c (Proc.devRef .tc main_v41) = tr (m ((c : Thread nD τ).loc main_arg4)) := (host1_v41 (W2 m ρ c)).trans (by rw [W2_arg4 m ρ c])
theorem W3_v42 : W3 m ρ c (Proc.devRef .tc main_v42) = tr (m ((c : Thread nD τ).loc main_arg5)) := (host1_v42 (W2 m ρ c)).trans (by rw [W2_arg5 m ρ c])

include H1 in
theorem W4_v43 : W4 m ρ c (Proc.devRef .tc main_v43) = hU m c := by
  refine (W4_arr m ρ c 5).trans ((H1 (V3 m ρ) c).trans ?_)
  rw [show V3 m ρ c main_v40 = _ from W3_v40 m ρ c, show V3 m ρ c main_arg0 = _ from W3_arg0 m ρ c,
    show V3 m ρ c main_v41 = _ from W3_v41 m ρ c, show V3 m ρ c main_arg11 = _ from W3_arg11 m ρ c,
    show V3 m ρ c main_v42 = _ from W3_v42 m ρ c]
  rfl

/-! ### Region 2: the jobs' embeddings -/

include H0 in
theorem W5_v21 : W5 m ρ c (Proc.devRef .tc main_v21) = hJ m c :=
  (keepH2_v21 (W4 m ρ c)).trans ((W4_of_ne m ρ c main_v21 (by decide)).trans ((keepH1_v21 (W2 m ρ c)).trans (W2_v21 m ρ c H0)))
include H1 in
theorem W5_v62 : W5 m ρ c (Proc.devRef .tc main_v62) = meanJ (hU m c) (m ((c : Thread nD τ).loc main_arg14)) (m ((c : Thread nD τ).loc main_arg15)) :=
  (host2_v62 (W4 m ρ c)).trans (by rw [W4_v43 m ρ c H1, W4_arg14 m ρ c, W4_arg15 m ρ c])
theorem W5_v63 : W5 m ρ c (Proc.devRef .tc main_v63) = tr (m ((c : Thread nD τ).loc main_arg6)) := (host2_v63 (W4 m ρ c)).trans (by rw [W4_arg6 m ρ c])
theorem W5_v64 : W5 m ρ c (Proc.devRef .tc main_v64) = tr (m ((c : Thread nD τ).loc main_arg7)) := (host2_v64 (W4 m ρ c)).trans (by rw [W4_arg7 m ρ c])

include H0 H1 H2 in
theorem W6_v65 : W6 m ρ c (Proc.devRef .tc main_v65) = zJ m c := by
  refine (W6_arr m ρ c 5).trans ((H2 (V5 m ρ) c).trans ?_)
  rw [show V5 m ρ c main_v62 = _ from W5_v62 m ρ c H1, show V5 m ρ c main_v21 = _ from W5_v21 m ρ c H0,
    show V5 m ρ c main_v63 = _ from W5_v63 m ρ c, show V5 m ρ c main_arg12 = _ from W5_arg12 m ρ c,
    show V5 m ρ c main_v64 = _ from W5_v64 m ρ c]
  rfl

/-! ### Region 3: the users' embeddings -/

include H0 in
theorem W6_v21 : W6 m ρ c (Proc.devRef .tc main_v21) = hJ m c :=
  (W6_arr m ρ c 1).trans (((dat2 (V5 m ρ) c).arrAt_in 1 rfl _).trans ((A_eq2 (V5 m ρ) c 1).trans (W5_v21 m ρ c H0)))
include H0 in
theorem W7_v84 : W7 m ρ c (Proc.devRef .tc main_v84) = meanU (hJ m c) (m ((c : Thread nD τ).loc main_arg16)) (m ((c : Thread nD τ).loc main_arg17)) :=
  (host3_v84 (W6 m ρ c)).trans (by rw [W6_v21 m ρ c H0, W6_arg16 m ρ c, W6_arg17 m ρ c])
theorem W7_v85 : W7 m ρ c (Proc.devRef .tc main_v85) = tr (m ((c : Thread nD τ).loc main_arg8)) := (host3_v85 (W6 m ρ c)).trans (by rw [W6_arg8 m ρ c])
theorem W7_v86 : W7 m ρ c (Proc.devRef .tc main_v86) = tr (m ((c : Thread nD τ).loc main_arg9)) := (host3_v86 (W6 m ρ c)).trans (by rw [W6_arg9 m ρ c])
include H1 in
theorem W7_v43 : W7 m ρ c (Proc.devRef .tc main_v43) = hU m c :=
  (keepH3_v43 (W6 m ρ c)).trans ((W6_of_ne m ρ c main_v43 (by decide)).trans ((keepH2_v43 (W4 m ρ c)).trans (W4_v43 m ρ c H1)))

include H0 H1 H3 in
theorem W8_v87 : W8 m ρ c (Proc.devRef .tc main_v87) = zU m c := by
  refine (W8_arr m ρ c 5).trans ((H3 (V7 m ρ) c).trans ?_)
  rw [show V7 m ρ c main_v84 = _ from W7_v84 m ρ c H0, show V7 m ρ c main_v43 = _ from W7_v43 m ρ c H1,
    show V7 m ρ c main_v85 = _ from W7_v85 m ρ c, show V7 m ρ c main_arg13 = _ from W7_arg13 m ρ c,
    show V7 m ρ c main_v86 = _ from W7_v86 m ρ c]
  rfl

/-! ### Region 4 and the return: the scores -/

include H0 H1 H2 in
theorem W8_v65 : W8 m ρ c (Proc.devRef .tc main_v65) = zJ m c :=
  (W8_of_ne m ρ c main_v65 (by decide)).trans ((keepH3_v65 (W6 m ρ c)).trans (W6_v65 m ρ c H0 H1 H2))
include H0 H1 H3 in
theorem W9_v94 : W9 m ρ c (Proc.devRef .tc main_v94) = takeU (zU m c) (m ((c : Thread nD τ).loc main_arg18)) :=
  (host4_v94 (W8 m ρ c)).trans (by rw [W8_v87 m ρ c H0 H1 H3, W8_arg18 m ρ c])
include H0 H1 H2 in
theorem W9_v101 : W9 m ρ c (Proc.devRef .tc main_v101) = takeJ (zJ m c) (m ((c : Thread nD τ).loc main_arg19)) :=
  (host4_v101 (W8 m ρ c)).trans (by rw [W8_v65 m ρ c H0 H1 H2, W8_arg19 m ρ c])

include H0 H1 H2 H3 in
theorem W10_v102 : W10 m ρ c (Proc.devRef .tc main_v102) = (fun i => Cert.Spec.cosrow (takeU (zU m c) (m ((c : Thread nD τ).loc main_arg18))) (takeJ (zJ m c) (m ((c : Thread nD τ).loc main_arg19))) (i 0)) := by
  refine (W10_arr m ρ c 2).trans ((Cert.KernelIdeal.CosValue.arr4 (V9 m ρ) c).trans ?_)
  rw [show V9 m ρ c main_v94 = _ from W9_v94 m ρ c H0 H1 H3, show V9 m ρ c main_v101 = _ from W9_v101 m ρ c H0 H1 H2]

include H0 H1 H2 H3 in
/-- THE RESULT ARRAY at the last boundary: the network of the argument arrays. -/
theorem W11_v103 : W11 m ρ c (Proc.devRef .tc main_v103)
    = Cert.Hand.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (host5_v103 (W10 m ρ c)).trans ?_
  rw [W10_v102 m ρ c H0 H1 H2 H3]
  funext i
  obtain ⟨r, rfl⟩ : ∃ r : Fin 100000, i = ix1 r := ⟨i 0, eq_ix1 i⟩
  refine (col_to_vec _ _ r).trans ?_
  rfl

end

end Cert.KernelIdeal.Hand

end
-- ==== Proof.DensePay.lean ====
/-
  The arithmetic of one block of a dense step, read entry by entry.

  A block's result is a pure term of the five values the body loads: two row blocks M, X (2000 rows of 128), two square
  matrices A, B and a vector b. Over the extended reals every format change is the identity, a same-shape reshape is the
  identity, a product into a zero accumulator is the plain sum over the contracted axis, and the vector b, viewed as one row
  and repeated down the rows, reads b[q] in column q. So entry (p, q) of the term is
  (∑ₖ M[p,k]·A[k,q] + ∑ₖ X[p,k]·B[k,q]) + b[q], clamped below at zero in the first layer: the specification's dense step
  of the block.
-/
import proofs.«105883_j54863912239638_1_alg».proof.Proof.Spec
import proofs.«105883_j54863912239638_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.DenseValue

open Idealize.ShloMosaic Idealize.ShloMosaic.ValueIdx
open Cert.KernelIdeal Cert.KernelIdeal.Gen

/-- The operand indices of a plain rows × contraction by contraction × columns product at output index i and contraction
    index c: (row of i, c) on the left, (c, column of i) on the right. -/
theorem lhs_row (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_contr (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem rhs_contr (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem rhs_col (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a 2000×128 block with a 128×128 matrix into a zero accumulator, at entry (p, q): the sum over the
    contracted axis, re-indexed by its one coordinate. -/
theorem matmul_at {φ₁ φ₂ : FTy} (a : FVec Ideal S2000x128 φ₁) (b : FVec Ideal S128x128 φ₂) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun d => Fin.ext (by
    match d with
    | ⟨0, _⟩ => exact lhs_row _ _
    | ⟨1, _⟩ => exact (lhs_contr _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun d => Fin.ext (by
    match d with
    | ⟨0, _⟩ => exact (rhs_contr _ _).trans hk
    | ⟨1, _⟩ => exact rhs_col _ _)
  rw [el, er]

/-- The vector b viewed as one row and repeated down 2000 rows reads b[q] at (p, q). -/
theorem bias_at (b : Vec Ideal S128 .f32) (p : Fin 2000) (q : Fin 128) :
    broadcastTo S2000x128 (shapeCast S1x128 b shapeCasts_S128_S1x128) broadcasts_S1x128_S2000x128 (ix2 p q) = b (ix1 q) := by
  rw [broadcastTo_apply _ broadcasts_S1x128_S2000x128 (ix2 p q) (ix2 (0 : Fin 1) q) (fun d => by
    match d with
    | ⟨0, _⟩ => rfl
    | ⟨1, _⟩ => rfl)]
  rw [shapeCast_addUnit_apply ![128] b shapeCasts_S128_S1x128 (ix2 (0 : Fin 1) q)]
  exact congrArg b (funext fun d => by match d with | ⟨0, _⟩ => rfl)

/-- Entry (p, q) of a first-layer block: the dense step of the block, clamped below at zero. -/
theorem k0_pay1_at (x0 x1 : Vec Ideal S2000x128 .f32) (x2 x4 : Vec Ideal S128x128 .f32) (x3 : Vec Ideal S128 .f32)
    (p : Fin 2000) (q : Fin 128) :
    k0_pay1 (F := Ideal) x0 x1 x2 x4 x3 (ix2 p q)
      = max ((Cert.Spec.rowcol x0 x2 p q + Cert.Spec.rowcol x1 x4 p q) + x3 (ix1 q)) (Ideal.ofBits .f32 0x00000000#32) := by
  unfold k0_pay1
  simp only [shapeCast_self]
  rw [maximumf_apply, addf_apply, addf_apply, matmul_at, matmul_at, bias_at]
  rfl

/-- The whole block: the specification's dense step of the five loaded values, clamped. -/
theorem k0_pay1_eq (x0 x1 : Vec Ideal S2000x128 .f32) (x2 x4 : Vec Ideal S128x128 .f32) (x3 : Vec Ideal S128 .f32) :
    k0_pay1 (F := Ideal) x0 x1 x2 x4 x3 = Cert.Spec.relu (Cert.Spec.dense x0 x1 x2 x3 x4) := by
  funext j
  obtain ⟨p, q, rfl⟩ : ∃ (p : Fin 2000) (q : Fin 128), j = ix2 p q := ⟨j 0, j 1, eq_ix2 j⟩
  exact k0_pay1_at x0 x1 x2 x4 x3 p q

/-- Entry (p, q) of a first-layer block: the dense step of the block, clamped below at zero. -/
theorem k1_pay1_at (x0 x1 : Vec Ideal S2000x128 .f32) (x2 x4 : Vec Ideal S128x128 .f32) (x3 : Vec Ideal S128 .f32)
    (p : Fin 2000) (q : Fin 128) :
    k1_pay1 (F := Ideal) x0 x1 x2 x4 x3 (ix2 p q)
      = max ((Cert.Spec.rowcol x0 x2 p q + Cert.Spec.rowcol x1 x4 p q) + x3 (ix1 q)) (Ideal.ofBits .f32 0x00000000#32) := by
  unfold k1_pay1
  simp only [shapeCast_self]
  rw [maximumf_apply, addf_apply, addf_apply, matmul_at, matmul_at, bias_at]
  rfl

/-- The whole block: the specification's dense step of the five loaded values, clamped. -/
theorem k1_pay1_eq (x0 x1 : Vec Ideal S2000x128 .f32) (x2 x4 : Vec Ideal S128x128 .f32) (x3 : Vec Ideal S128 .f32) :
    k1_pay1 (F := Ideal) x0 x1 x2 x4 x3 = Cert.Spec.relu (Cert.Spec.dense x0 x1 x2 x3 x4) := by
  funext j
  obtain ⟨p, q, rfl⟩ : ∃ (p : Fin 2000) (q : Fin 128), j = ix2 p q := ⟨j 0, j 1, eq_ix2 j⟩
  exact k1_pay1_at x0 x1 x2 x4 x3 p q

/-- Entry (p, q) of a second-layer block: the dense step of the block. -/
theorem k2_pay1_at (x0 x1 : Vec Ideal S2000x128 .f32) (x2 x4 : Vec Ideal S128x128 .f32) (x3 : Vec Ideal S128 .f32)
    (p : Fin 2000) (q : Fin 128) :
    k2_pay1 (F := Ideal) x0 x1 x2 x4 x3 (ix2 p q)
      = (Cert.Spec.rowcol x0 x2 p q + Cert.Spec.rowcol x1 x4 p q) + x3 (ix1 q) := by
  unfold k2_pay1
  simp only [shapeCast_self]
  rw [addf_apply, addf_apply, matmul_at, matmul_at, bias_at]
  rfl

/-- The whole block: the specification's dense step of the five loaded values. -/
theorem k2_pay1_eq (x0 x1 : Vec Ideal S2000x128 .f32) (x2 x4 : Vec Ideal S128x128 .f32) (x3 : Vec Ideal S128 .f32) :
    k2_pay1 (F := Ideal) x0 x1 x2 x4 x3 = Cert.Spec.dense x0 x1 x2 x3 x4 := by
  funext j
  obtain ⟨p, q, rfl⟩ : ∃ (p : Fin 2000) (q : Fin 128), j = ix2 p q := ⟨j 0, j 1, eq_ix2 j⟩
  exact k2_pay1_at x0 x1 x2 x4 x3 p q

/-- Entry (p, q) of a second-layer block: the dense step of the block. -/
theorem k3_pay1_at (x0 x1 : Vec Ideal S2000x128 .f32) (x2 x4 : Vec Ideal S128x128 .f32) (x3 : Vec Ideal S128 .f32)
    (p : Fin 2000) (q : Fin 128) :
    k3_pay1 (F := Ideal) x0 x1 x2 x4 x3 (ix2 p q)
      = (Cert.Spec.rowcol x0 x2 p q + Cert.Spec.rowcol x1 x4 p q) + x3 (ix1 q) := by
  unfold k3_pay1
  simp only [shapeCast_self]
  rw [addf_apply, addf_apply, matmul_at, matmul_at, bias_at]
  rfl

/-- The whole block: the specification's dense step of the five loaded values. -/
theorem k3_pay1_eq (x0 x1 : Vec Ideal S2000x128 .f32) (x2 x4 : Vec Ideal S128x128 .f32) (x3 : Vec Ideal S128 .f32) :
    k3_pay1 (F := Ideal) x0 x1 x2 x4 x3 = Cert.Spec.dense x0 x1 x2 x3 x4 := by
  funext j
  obtain ⟨p, q, rfl⟩ : ∃ (p : Fin 2000) (q : Fin 128), j = ix2 p q := ⟨j 0, j 1, eq_ix2 j⟩
  exact k3_pay1_at x0 x1 x2 x4 x3 p q

/-- The offsets the body's whole-buffer loads and its one store are printed with are zero on every axis. -/
theorem zeros2 : (![0, 0] : Fin 2 → Nat) = fun _ => 0 := funext fun a => by fin_cases a <;> rfl
theorem zeros1 : (![0] : Fin 1 → Nat) = fun _ => 0 := funext fun a => by fin_cases a; rfl

/-- The dense step of five blocks at entry (p, q) is the dense step of the arrays M, X, A, b, B at (r, q) when row p of the
    two row blocks is row r of M and of X and the other three blocks are A, b and B. -/
theorem dense_block_at {n : Nat} (x0 x1 : Vec Ideal S2000x128 .f32) (x2 x4 : Vec Ideal S128x128 .f32) (x3 : Vec Ideal S128 .f32)
    (M X : Cert.Spec.Mat n 128) (A B : Cert.Spec.Mat 128 128) (b : Cert.Spec.Vect 128) (p : Fin 2000) (q : Fin 128) (r : Fin n)
    (h0 : ∀ k, x0 (ix2 p k) = M (ix2 r k)) (h1 : ∀ k, x1 (ix2 p k) = X (ix2 r k))
    (h2 : ∀ j, x2 j = A j) (h3 : ∀ j, x3 j = b j) (h4 : ∀ j, x4 j = B j) :
    (Cert.Spec.rowcol x0 x2 p q + Cert.Spec.rowcol x1 x4 p q) + x3 (ix1 q)
      = (Cert.Spec.rowcol M A r q + Cert.Spec.rowcol X B r q) + b (ix1 q) := by
  unfold Cert.Spec.rowcol
  rw [h3]
  simp only [h0, h1, h2, h4]

end Cert.KernelIdeal.DenseValue

end
-- ==== Proof.Dense0.lean ====
/-
  Dense region 0: the array the 10 write-backs leave is the specification's dense step of the whole input arrays.

  Point t of the grid stages rows 2000·t … 2000·t + 1999 of the two row arrays and the whole of the two square matrices
  and of the vector, and writes its result back to the same rows of the output. Entry (p, q) of the block's result is the
  dense step of the staged blocks (the payload read at an index), whose sums over k read row 2000·t + p of the arrays: so
  the block written back is the block of the dense step of the whole arrays, and the 10 blocks tile the 20000 rows.
-/
import proofs.«105883_j54863912239638_1_alg».proof.Proof.DensePay
import proofs.«105883_j54863912239638_1_alg».proof.Proof.Gen.KernelIdeal.Frame

set_option maxRecDepth 16384

noncomputable section

namespace Cert.KernelIdeal.DenseValue

open Idealize.ShloMosaic Idealize.ShloMosaic.TcCoe Idealize.ShloMosaic.ValueIdx
open Idealize.ShloMosaic.Pipeline (Dat)
open Cert.KernelIdeal Cert.KernelIdeal.Gen

section Region0

variable (V : (c : Dev nD) → (b : Ref sig .tc) → Buf (Elt Ideal) ((c : Thread nD τ).loc b))

/-- The index maps over the grid: the row windows (0, 1 and the output 5) are at block (t, 0), the matrices and the
    vector at block 0. -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the first row array is row 2000·t + p of the array. -/
theorem rows0_0 (c : Dev nD) (t : Fin cfg0.N) (p : Fin 2000) (k : Fin 128) (r : Fin 20000) (hr : r.val = t.val * 2000 + p.val) :
    (iblk0 V c 0 t : Vec Ideal S2000x128 .f32) (ix2 p k) = (V c main_v18 : S20000x128.Idx → EReal) (ix2 r k) := by
  obtain ⟨e0, e1, -⟩ := index_maps0 t
  unfold iblk0
  rw [View.read_apply]
  show V c main_v18 _ = V c main_v18 _
  refine congrArg (V c main_v18) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The same for the second row array. -/
theorem rows1_0 (c : Dev nD) (t : Fin cfg0.N) (p : Fin 2000) (k : Fin 128) (r : Fin 20000) (hr : r.val = t.val * 2000 + p.val) :
    (iblk0 V c 1 t : Vec Ideal S2000x128 .f32) (ix2 p k) = (V c main_arg1 : S20000x128.Idx → EReal) (ix2 r k) := by
  obtain ⟨-, -, e0, e1, -⟩ := index_maps0 t
  unfold iblk0
  rw [View.read_apply]
  show V c main_arg1 _ = V c main_arg1 _
  refine congrArg (V c main_arg1) (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- Every point's block of the first square matrix is the matrix. -/
theorem whole2_0 (c : Dev nD) (t : Fin cfg0.N) (j : S128x128.Idx) :
    (iblk0 V c 2 t : Vec Ideal S128x128 .f32) j = (V c main_v19 : S128x128.Idx → EReal) j := by
  obtain ⟨-, -, -, -, e0, e1, -⟩ := index_maps0 t
  unfold iblk0
  rw [View.read_apply]
  show V c main_v19 _ = V c main_v19 _
  refine congrArg (V c main_v19) (funext fun a => Fin.ext ?_)
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- Every point's block of the vector is the vector. -/
theorem whole3_0 (c : Dev nD) (t : Fin cfg0.N) (j : S128.Idx) :
    (iblk0 V c 3 t : Vec Ideal S128 .f32) j = (V c main_arg10 : S128.Idx → EReal) j := by
  obtain ⟨-, -, -, -, -, -, e0, -⟩ := index_maps0 t
  unfold iblk0
  rw [View.read_apply]
  show V c main_arg10 _ = V c main_arg10 _
  refine congrArg (V c main_arg10) (funext fun a => Fin.ext ?_)
  match a with
  | ⟨0, _⟩ => show win0_3.index t (0 : Fin 1) * 128 + 1 * (j 0).val = (j 0).val; rw [e0]; omega

/-- Every point's block of the second square matrix is the matrix. -/
theorem whole4_0 (c : Dev nD) (t : Fin cfg0.N) (j : S128x128.Idx) :
    (iblk0 V c 4 t : Vec Ideal S128x128 .f32) j = (V c main_v20 : S128x128.Idx → EReal) j := by
  obtain ⟨-, -, -, -, -, -, -, e0, e1, -⟩ := index_maps0 t
  unfold iblk0
  rw [View.read_apply]
  show V c main_v20 _ = V c main_v20 _
  refine congrArg (V c main_v20) (funext fun a => Fin.ext ?_)
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

/-- WHAT POINT t WRITES BACK is block t of the dense step of the arrays as the region finds them. -/
theorem flushed0_eq (c : Dev nD) (t : Fin cfg0.N) :
    (dat0 (F := Ideal) V c).flushed 5 t = ((cfg0.win 5).blk t).view.read (Elt Ideal) (Cert.Spec.relu (Cert.Spec.dense (V c main_v18) (V c main_arg1) (V c main_v19) (V c main_arg10) (V c main_v20))) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S128x128) zeros2, View.ld_unit_zero (S := S128) zeros1]
  obtain ⟨-, -, -, -, -, -, -, -, -, e0, e1⟩ := index_maps0 t
  funext j
  obtain ⟨p, q, rfl⟩ : ∃ (p : Fin 2000) (q : Fin 128), j = ix2 p q := ⟨j 0, j 1, eq_ix2 j⟩
  refine (k0_pay1_at _ _ _ _ _ p q).trans ?_
  rw [View.read_apply]
  have hp : p.val < 2000 := p.isLt
  have ht : t.val < 10 := lt_of_lt_of_eq t.isLt N_0
  have hemb : ((cfg0.win 5).blk t).view.emb (ix2 p q) = (ix2 (⟨t.val * 2000 + p.val, by omega⟩ : Fin 20000) q : S20000x128.Idx) := by
    funext a; apply Fin.ext
    match a with
    | ⟨0, _⟩ => show win0_5.index t (0 : Fin 2) * 2000 + 1 * p.val = t.val * 2000 + p.val; rw [e0]; omega
    | ⟨1, _⟩ => show win0_5.index t (1 : Fin 2) * 128 + 1 * q.val = q.val; rw [e1]; omega
  rw [hemb]
  refine congrArg (fun z => max z (Ideal.ofBits .f32 0x00000000#32)) ?_
  exact dense_block_at _ _ _ _ _ _ _ _ _ _ p q _
    (fun k => rows0_0 V c t p k _ rfl) (fun k => rows1_0 V c t p k _ rfl)
    (whole2_0 V c t) (whole3_0 V c t) (whole4_0 V c t)

/-- An index of the array is in point t's block iff each coordinate is in the block's range on its axis. -/
theorem mem_blk0 (t : Fin cfg0.N) (i : S20000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v21).slice (win0_5.rect t)).set ↔ _
  rw [View.set_slice_whole, Rect.mem_set_unit]
  exact Iff.rfl

/-- Every index of the array is in some point's block: row r is in block r / 2000. -/
theorem cover0 (i : S20000x128.Idx) : ∃ t : Fin cfg0.N, (cfg0.win 5).flush t = true ∧ i ∈ ((cfg0.win 5).blk t).view.set := by
  have hi0 : (i 0).val < 20000 := (i 0).isLt
  have hi1 : (i 1).val < 128 := (i 1).isLt
  have hN : cfg0.N = 10 := N_0
  refine ⟨⟨(i 0).val / 2000, by rw [hN]; omega⟩, flush0_5 _, ?_⟩
  rw [mem_blk0]
  obtain ⟨-, -, -, -, -, -, -, -, -, e0, e1⟩ := index_maps0 ⟨(i 0).val / 2000, by rw [hN]; omega⟩
  intro a
  match a with
  | ⟨0, _⟩ => show win0_5.index _ (0 : Fin 2) * 2000 ≤ (i 0).val ∧ (i 0).val < win0_5.index _ (0 : Fin 2) * 2000 + 2000; rw [e0]; show (i 0).val / 2000 * 2000 ≤ (i 0).val ∧ (i 0).val < (i 0).val / 2000 * 2000 + 2000; omega
  | ⟨1, _⟩ => show win0_5.index _ (1 : Fin 2) * 128 ≤ (i 1).val ∧ (i 1).val < win0_5.index _ (1 : Fin 2) * 128 + 128; rw [e1]; omega

end Region0

/-- THE ARRAY after region 0's run: the dense step of the region's input arrays, clamped below at zero. -/
theorem arr0 (V : (c : Dev nD) → (b : Ref sig .tc) → Buf (Elt Ideal) ((c : Thread nD τ).loc b)) (c : Dev nD) :
    (dat0 (F := Ideal) V c).arrAt 5 cfg0.N = Cert.Spec.relu (Cert.Spec.dense (V c main_v18) (V c main_arg1) (V c main_v19) (V c main_arg10) (V c main_v20)) :=
  (dat0 (F := Ideal) V c).arrAt_eq_of_cover 5 (Cert.Spec.relu (Cert.Spec.dense (V c main_v18) (V c main_arg1) (V c main_v19) (V c main_arg10) (V c main_v20))) (fun t _ => flushed0_eq V c t) cover0

end Cert.KernelIdeal.DenseValue

end
-- ==== Proof.Dense1.lean ====
/-
  Dense region 1: the array the 25 write-backs leave is the specification's dense step of the whole input arrays.

  Point t of the grid stages rows 2000·t … 2000·t + 1999 of the two row arrays and the whole of the two square matrices
  and of the vector, and writes its result back to the same rows of the output. Entry (p, q) of the block's result is the
  dense step of the staged blocks (the payload read at an index), whose sums over k read row 2000·t + p of the arrays: so
  the block written back is the block of the dense step of the whole arrays, and the 25 blocks tile the 50000 rows.
-/
import proofs.«105883_j54863912239638_1_alg».proof.Proof.DensePay
import proofs.«105883_j54863912239638_1_alg».proof.Proof.Gen.KernelIdeal.Frame

set_option maxRecDepth 16384

noncomputable section

namespace Cert.KernelIdeal.DenseValue

open Idealize.ShloMosaic Idealize.ShloMosaic.TcCoe Idealize.ShloMosaic.ValueIdx
open Idealize.ShloMosaic.Pipeline (Dat)
open Cert.KernelIdeal Cert.KernelIdeal.Gen

section Region1

variable (V : (c : Dev nD) → (b : Ref sig .tc) → Buf (Elt Ideal) ((c : Thread nD τ).loc b))

/-- The index maps over the grid: the row windows (0, 1 and the output 5) are at block (t, 0), the matrices and the
    vector at block 0. -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the first row array is row 2000·t + p of the array. -/
theorem rows0_1 (c : Dev nD) (t : Fin cfg1.N) (p : Fin 2000) (k : Fin 128) (r : Fin 50000) (hr : r.val = t.val * 2000 + p.val) :
    (iblk1 V c 0 t : Vec Ideal S2000x128 .f32) (ix2 p k) = (V c main_v40 : S50000x128.Idx → EReal) (ix2 r k) := by
  obtain ⟨e0, e1, -⟩ := index_maps1 t
  unfold iblk1
  rw [View.read_apply]
  show V c main_v40 _ = V c main_v40 _
  refine congrArg (V c main_v40) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The same for the second row array. -/
theorem rows1_1 (c : Dev nD) (t : Fin cfg1.N) (p : Fin 2000) (k : Fin 128) (r : Fin 50000) (hr : r.val = t.val * 2000 + p.val) :
    (iblk1 V c 1 t : Vec Ideal S2000x128 .f32) (ix2 p k) = (V c main_arg0 : S50000x128.Idx → EReal) (ix2 r k) := by
  obtain ⟨-, -, e0, e1, -⟩ := index_maps1 t
  unfold iblk1
  rw [View.read_apply]
  show V c main_arg0 _ = V c main_arg0 _
  refine congrArg (V c main_arg0) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- Every point's block of the first square matrix is the matrix. -/
theorem whole2_1 (c : Dev nD) (t : Fin cfg1.N) (j : S128x128.Idx) :
    (iblk1 V c 2 t : Vec Ideal S128x128 .f32) j = (V c main_v41 : S128x128.Idx → EReal) j := by
  obtain ⟨-, -, -, -, e0, e1, -⟩ := index_maps1 t
  unfold iblk1
  rw [View.read_apply]
  show V c main_v41 _ = V c main_v41 _
  refine congrArg (V c main_v41) (funext fun a => Fin.ext ?_)
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

/-- Every point's block of the vector is the vector. -/
theorem whole3_1 (c : Dev nD) (t : Fin cfg1.N) (j : S128.Idx) :
    (iblk1 V c 3 t : Vec Ideal S128 .f32) j = (V c main_arg11 : S128.Idx → EReal) j := by
  obtain ⟨-, -, -, -, -, -, e0, -⟩ := index_maps1 t
  unfold iblk1
  rw [View.read_apply]
  show V c main_arg11 _ = V c main_arg11 _
  refine congrArg (V c main_arg11) (funext fun a => Fin.ext ?_)
  match a with
  | ⟨0, _⟩ => show win1_3.index t (0 : Fin 1) * 128 + 1 * (j 0).val = (j 0).val; rw [e0]; omega

/-- Every point's block of the second square matrix is the matrix. -/
theorem whole4_1 (c : Dev nD) (t : Fin cfg1.N) (j : S128x128.Idx) :
    (iblk1 V c 4 t : Vec Ideal S128x128 .f32) j = (V c main_v42 : S128x128.Idx → EReal) j := by
  obtain ⟨-, -, -, -, -, -, -, e0, e1, -⟩ := index_maps1 t
  unfold iblk1
  rw [View.read_apply]
  show V c main_v42 _ = V c main_v42 _
  refine congrArg (V c main_v42) (funext fun a => Fin.ext ?_)
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-- WHAT POINT t WRITES BACK is block t of the dense step of the arrays as the region finds them. -/
theorem flushed1_eq (c : Dev nD) (t : Fin cfg1.N) :
    (dat1 (F := Ideal) V c).flushed 5 t = ((cfg1.win 5).blk t).view.read (Elt Ideal) (Cert.Spec.relu (Cert.Spec.dense (V c main_v40) (V c main_arg0) (V c main_v41) (V c main_arg11) (V c main_v42))) := by
  show (cfg1.win 5).cut (grid1.coords t) ((dat1 V c).after 5 t) = _
  rw [after1_5]
  unfold out1_5
  rw [View.canon_unit_zero zeros2]
  simp only [View.ld_unit_zero (S := S2000x128) zeros2, View.ld_unit_zero (S := S128x128) zeros2, View.ld_unit_zero (S := S128) zeros1]
  obtain ⟨-, -, -, -, -, -, -, -, -, e0, e1⟩ := index_maps1 t
  funext j
  obtain ⟨p, q, rfl⟩ : ∃ (p : Fin 2000) (q : Fin 128), j = ix2 p q := ⟨j 0, j 1, eq_ix2 j⟩
  refine (k1_pay1_at _ _ _ _ _ p q).trans ?_
  rw [View.read_apply]
  have hp : p.val < 2000 := p.isLt
  have ht : t.val < 25 := lt_of_lt_of_eq t.isLt N_1
  have hemb : ((cfg1.win 5).blk t).view.emb (ix2 p q) = (ix2 (⟨t.val * 2000 + p.val, by omega⟩ : Fin 50000) q : S50000x128.Idx) := by
    funext a; apply Fin.ext
    match a with
    | ⟨0, _⟩ => show win1_5.index t (0 : Fin 2) * 2000 + 1 * p.val = t.val * 2000 + p.val; rw [e0]; omega
    | ⟨1, _⟩ => show win1_5.index t (1 : Fin 2) * 128 + 1 * q.val = q.val; rw [e1]; omega
  rw [hemb]
  refine congrArg (fun z => max z (Ideal.ofBits .f32 0x00000000#32)) ?_
  exact dense_block_at _ _ _ _ _ _ _ _ _ _ p q _
    (fun k => rows0_1 V c t p k _ rfl) (fun k => rows1_1 V c t p k _ rfl)
    (whole2_1 V c t) (whole3_1 V c t) (whole4_1 V c t)

/-- An index of the array is in point t's block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v43).slice (win1_5.rect t)).set ↔ _
  rw [View.set_slice_whole, Rect.mem_set_unit]
  exact Iff.rfl

/-- Every index of the array is in some point's block: row r is in block r / 2000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_5 _, ?_⟩
  rw [mem_blk1]
  obtain ⟨-, -, -, -, -, -, -, -, -, e0, e1⟩ := index_maps1 ⟨(i 0).val / 2000, by rw [hN]; omega⟩
  intro a
  match a with
  | ⟨0, _⟩ => show win1_5.index _ (0 : Fin 2) * 2000 ≤ (i 0).val ∧ (i 0).val < win1_5.index _ (0 : Fin 2) * 2000 + 2000; rw [e0]; show (i 0).val / 2000 * 2000 ≤ (i 0).val ∧ (i 0).val < (i 0).val / 2000 * 2000 + 2000; omega
  | ⟨1, _⟩ => show win1_5.index _ (1 : Fin 2) * 128 ≤ (i 1).val ∧ (i 1).val < win1_5.index _ (1 : Fin 2) * 128 + 128; rw [e1]; omega

end Region1

/-- THE ARRAY after region 1's run: the dense step of the region's input arrays, clamped below at zero. -/
theorem arr1 (V : (c : Dev nD) → (b : Ref sig .tc) → Buf (Elt Ideal) ((c : Thread nD τ).loc b)) (c : Dev nD) :
    (dat1 (F := Ideal) V c).arrAt 5 cfg1.N = Cert.Spec.relu (Cert.Spec.dense (V c main_v40) (V c main_arg0) (V c main_v41) (V c main_arg11) (V c main_v42)) :=
  (dat1 (F := Ideal) V c).arrAt_eq_of_cover 5 (Cert.Spec.relu (Cert.Spec.dense (V c main_v40) (V c main_arg0) (V c main_v41) (V c main_arg11) (V c main_v42))) (fun t _ => flushed1_eq V c t) cover1

end Cert.KernelIdeal.DenseValue

end
-- ==== Proof.Dense2.lean ====
/-
  Dense region 2: the array the 10 write-backs leave is the specification's dense step of the whole input arrays.

  Point t of the grid stages rows 2000·t … 2000·t + 1999 of the two row arrays and the whole of the two square matrices
  and of the vector, and writes its result back to the same rows of the output. Entry (p, q) of the block's result is the
  dense step of the staged blocks (the payload read at an index), whose sums over k read row 2000·t + p of the arrays: so
  the block written back is the block of the dense step of the whole arrays, and the 10 blocks tile the 20000 rows.
-/
import proofs.«105883_j54863912239638_1_alg».proof.Proof.DensePay
import proofs.«105883_j54863912239638_1_alg».proof.Proof.Gen.KernelIdeal.Frame

set_option maxRecDepth 16384

noncomputable section

namespace Cert.KernelIdeal.DenseValue

open Idealize.ShloMosaic Idealize.ShloMosaic.TcCoe Idealize.ShloMosaic.ValueIdx
open Idealize.ShloMosaic.Pipeline (Dat)
open Cert.KernelIdeal Cert.KernelIdeal.Gen

section Region2

variable (V : (c : Dev nD) → (b : Ref sig .tc) → Buf (Elt Ideal) ((c : Thread nD τ).loc b))

/-- The index maps over the grid: the row windows (0, 1 and the output 5) are at block (t, 0), the matrices and the
    vector at block 0. -/
theorem index_maps2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's block of the first row array is row 2000·t + p of the array. -/
theorem rows0_2 (c : Dev nD) (t : Fin cfg2.N) (p : Fin 2000) (k : Fin 128) (r : Fin 20000) (hr : r.val = t.val * 2000 + p.val) :
    (iblk2 V c 0 t : Vec Ideal S2000x128 .f32) (ix2 p k) = (V c main_v62 : S20000x128.Idx → EReal) (ix2 r k) := by
  obtain ⟨e0, e1, -⟩ := index_maps2 t
  unfold iblk2
  rw [View.read_apply]
  show V c main_v62 _ = V c main_v62 _
  refine congrArg (V c main_v62) (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The same for the second row array. -/
theorem rows1_2 (c : Dev nD) (t : Fin cfg2.N) (p : Fin 2000) (k : Fin 128) (r : Fin 20000) (hr : r.val = t.val * 2000 + p.val) :
    (iblk2 V c 1 t : Vec Ideal S2000x128 .f32) (ix2 p k) = (V c main_v21 : S20000x128.Idx → EReal) (ix2 r k) := by
  obtain ⟨-, -, e0, e1, -⟩ := index_maps2 t
  unfold iblk2
  rw [View.read_apply]
  show V c main_v21 _ = V c main_v21 _
  refine congrArg (V c main_v21) (funext fun a => Fin.ext ?_)
  match a with
  | ⟨0, _⟩ => show win2_1.index t (0 : Fin 2) * 2000 + 1 * p.val = r.val; rw [e0, hr]; omega
  | ⟨1, _⟩ => show win2_1.index t (1 : Fin 2) * 128 + 1 * k.val = k.val; rw [e1]; omega

/-- Every point's block of the first square matrix is the matrix. -/
theorem whole2_2 (c : Dev nD) (t : Fin cfg2.N) (j : S128x128.Idx) :
    (iblk2 V c 2 t : Vec Ideal S128x128 .f32) j = (V c main_v63 : S128x128.Idx → EReal) j := by
  obtain ⟨-, -, -, -, e0, e1, -⟩ := index_maps2 t
  unfold iblk2
  rw [View.read_apply]
  show V c main_v63 _ = V c main_v63 _
  refine congrArg (V c main_v63) (funext fun a => Fin.ext ?_)
  match a with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

/-- Every point's block of the vector is the vector. -/
theorem whole3_2 (c : Dev nD) (t : Fin cfg2.N) (j : S128.Idx) :
    (iblk2 V c 3 t : Vec Ideal S128 .f32) j = (V c main_arg12 : S128.Idx → EReal) j := by
  obtain ⟨-, -, -, -, -, -, e0, -⟩ := index_maps2 t
  unfold iblk2
  rw [View.read_apply]
  show V c main_arg12 _ = V c main_arg12 _
  refine congrArg (V c main_arg12) (funext fun a => Fin.ext ?_)
  match a with
  | ⟨0, _⟩ => show win2_3.index t (0 : Fin 1) * 128 + 1 * (j 0).val = (j 0).val; rw [e0]; omega

/-- Every point's block of the second square matrix is the matrix. -/
theorem whole4_2 (c : Dev nD) (t : Fin cfg2.N) (j : S128x128.Idx) :
    (iblk2 V c 4 t : Vec Ideal S128x128 .f32) j = (V c main_v64 : S128x128.Idx → EReal) j := by
  obtain ⟨-, -, -, -, -, -, -, e0, e1, -⟩ := index_maps2 t
  unfold iblk2
  rw [View.read_apply]
  show V c main_v64 _ = V c main_v64 _
  refine congrArg (V c main_v64) (funext fun a => Fin.ext ?_)
  match a with
  | ⟨0, _⟩ => show win2_4.index t (0 : Fin 2) * 128 + 1 * (j 0).val = (j 0).val; rw [e0]; omega
  | ⟨1, _⟩ => show win2_4.index t (1 : Fin 2) * 128 + 1 * (j 1).val = (j 1).val; rw [e1]; omega

/-- WHAT POINT t WRITES BACK is block t of the dense step of the arrays as the region finds them. -/
theorem flushed2_eq (c : Dev nD) (t : Fin cfg2.N) :
    (dat2 (F := Ideal) V c).flushed 5 t = ((cfg2.win 5).blk t).view.read (Elt Ideal) (Cert.Spec.dense (V c main_v62) (V c main_v21) (V c main_v63) (V c main_arg12) (V c main_v64)) := by
  show (cfg2.win 5).cut (grid2.coords t) ((dat2 V c).after 5 t) = _
  rw [after2_5]
  unfold out2_5
  rw [View.canon_unit_zero zeros2]
  simp only [View.ld_unit_zero (S := S2000x128) zeros2, View.ld_unit_zero (S := S128x128) zeros2, View.ld_unit_zero (S := S128) zeros1]
  obtain ⟨-, -, -, -, -, -, -, -, -, e0, e1⟩ := index_maps2 t
  funext j
  obtain ⟨p, q, rfl⟩ : ∃ (p : Fin 2000) (q : Fin 128), j = ix2 p q := ⟨j 0, j 1, eq_ix2 j⟩
  refine (k2_pay1_at _ _ _ _ _ p q).trans ?_
  rw [View.read_apply]
  have hp : p.val < 2000 := p.isLt
  have ht : t.val < 10 := lt_of_lt_of_eq t.isLt N_2
  have hemb : ((cfg2.win 5).blk t).view.emb (ix2 p q) = (ix2 (⟨t.val * 2000 + p.val, by omega⟩ : Fin 20000) q : S20000x128.Idx) := by
    funext a; apply Fin.ext
    match a with
    | ⟨0, _⟩ => show win2_5.index t (0 : Fin 2) * 2000 + 1 * p.val = t.val * 2000 + p.val; rw [e0]; omega
    | ⟨1, _⟩ => show win2_5.index t (1 : Fin 2) * 128 + 1 * q.val = q.val; rw [e1]; omega
  rw [hemb]
  exact dense_block_at _ _ _ _ _ _ _ _ _ _ p q _
    (fun k => rows0_2 V c t p k _ rfl) (fun k => rows1_2 V c t p k _ rfl)
    (whole2_2 V c t) (whole3_2 V c t) (whole4_2 V c t)

/-- An index of the array is in point t's block iff each coordinate is in the block's range on its axis. -/
theorem mem_blk2 (t : Fin cfg2.N) (i : S20000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v65).slice (win2_5.rect t)).set ↔ _
  rw [View.set_slice_whole, Rect.mem_set_unit]
  exact Iff.rfl

/-- Every index of the array is in some point's block: row r is in block r / 2000. -/
theorem cover2 (i : S20000x128.Idx) : ∃ t : Fin cfg2.N, (cfg2.win 5).flush t = true ∧ i ∈ ((cfg2.win 5).blk t).view.set := by
  have hi0 : (i 0).val < 20000 := (i 0).isLt
  have hi1 : (i 1).val < 128 := (i 1).isLt
  have hN : cfg2.N = 10 := N_2
  refine ⟨⟨(i 0).val / 2000, by rw [hN]; omega⟩, flush2_5 _, ?_⟩
  rw [mem_blk2]
  obtain ⟨-, -, -, -, -, -, -, -, -, e0, e1⟩ := index_maps2 ⟨(i 0).val / 2000, by rw [hN]; omega⟩
  intro a
  match a with
  | ⟨0, _⟩ => show win2_5.index _ (0 : Fin 2) * 2000 ≤ (i 0).val ∧ (i 0).val < win2_5.index _ (0 : Fin 2) * 2000 + 2000; rw [e0]; show (i 0).val / 2000 * 2000 ≤ (i 0).val ∧ (i 0).val < (i 0).val / 2000 * 2000 + 2000; omega
  | ⟨1, _⟩ => show win2_5.index _ (1 : Fin 2) * 128 ≤ (i 1).val ∧ (i 1).val < win2_5.index _ (1 : Fin 2) * 128 + 128; rw [e1]; omega

end Region2

/-- THE ARRAY after region 2's run: the dense step of the region's input arrays. -/
theorem arr2 (V : (c : Dev nD) → (b : Ref sig .tc) → Buf (Elt Ideal) ((c : Thread nD τ).loc b)) (c : Dev nD) :
    (dat2 (F := Ideal) V c).arrAt 5 cfg2.N = Cert.Spec.dense (V c main_v62) (V c main_v21) (V c main_v63) (V c main_arg12) (V c main_v64) :=
  (dat2 (F := Ideal) V c).arrAt_eq_of_cover 5 (Cert.Spec.dense (V c main_v62) (V c main_v21) (V c main_v63) (V c main_arg12) (V c main_v64)) (fun t _ => flushed2_eq V c t) cover2

end Cert.KernelIdeal.DenseValue

end
-- ==== Proof.Dense3.lean ====
/-
  Dense region 3: the array the 25 write-backs leave is the specification's dense step of the whole input arrays.

  Point t of the grid stages rows 2000·t … 2000·t + 1999 of the two row arrays and the whole of the two square matrices
  and of the vector, and writes its result back to the same rows of the output. Entry (p, q) of the block's result is the
  dense step of the staged blocks (the payload read at an index), whose sums over k read row 2000·t + p of the arrays: so
  the block written back is the block of the dense step of the whole arrays, and the 25 blocks tile the 50000 rows.
-/
import proofs.«105883_j54863912239638_1_alg».proof.Proof.DensePay
import proofs.«105883_j54863912239638_1_alg».proof.Proof.Gen.KernelIdeal.Frame

set_option maxRecDepth 16384

noncomputable section

namespace Cert.KernelIdeal.DenseValue

open Idealize.ShloMosaic Idealize.ShloMosaic.TcCoe Idealize.ShloMosaic.ValueIdx
open Idealize.ShloMosaic.Pipeline (Dat)
open Cert.KernelIdeal Cert.KernelIdeal.Gen

section Region3

variable (V : (c : Dev nD) → (b : Ref sig .tc) → Buf (Elt Ideal) ((c : Thread nD τ).loc b))

/-- The index maps over the grid: the row windows (0, 1 and the output 5) are at block (t, 0), the matrices and the
    vector at block 0. -/
theorem index_maps3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of point t's block of the first row array is row 2000·t + p of the array. -/
theorem rows0_3 (c : Dev nD) (t : Fin cfg3.N) (p : Fin 2000) (k : Fin 128) (r : Fin 50000) (hr : r.val = t.val * 2000 + p.val) :
    (iblk3 V c 0 t : Vec Ideal S2000x128 .f32) (ix2 p k) = (V c main_v84 : S50000x128.Idx → EReal) (ix2 r k) := by
  obtain ⟨e0, e1, -⟩ := index_maps3 t
  unfold iblk3
  rw [View.read_apply]
  show V c main_v84 _ = V c main_v84 _
  refine congrArg (V c main_v84) (funext fun a => Fin.ext ?_)
  match a with
  | ⟨0, _⟩ => show win3_0.index t (0 : Fin 2) * 2000 + 1 * p.val = r.val; rw [e0, hr]; omega
  | ⟨1, _⟩ => show win3_0.index t (1 : Fin 2) * 128 + 1 * k.val = k.val; rw [e1]; omega

/-- The same for the second row array. -/
theorem rows1_3 (c : Dev nD) (t : Fin cfg3.N) (p : Fin 2000) (k : Fin 128) (r : Fin 50000) (hr : r.val = t.val * 2000 + p.val) :
    (iblk3 V c 1 t : Vec Ideal S2000x128 .f32) (ix2 p k) = (V c main_v43 : S50000x128.Idx → EReal) (ix2 r k) := by
  obtain ⟨-, -, e0, e1, -⟩ := index_maps3 t
  unfold iblk3
  rw [View.read_apply]
  show V c main_v43 _ = V c main_v43 _
  refine congrArg (V c main_v43) (funext fun a => Fin.ext ?_)
  match a with
  | ⟨0, _⟩ => show win3_1.index t (0 : Fin 2) * 2000 + 1 * p.val = r.val; rw [e0, hr]; omega
  | ⟨1, _⟩ => show win3_1.index t (1 : Fin 2) * 128 + 1 * k.val = k.val; rw [e1]; omega

/-- Every point's block of the first square matrix is the matrix. -/
theorem whole2_3 (c : Dev nD) (t : Fin cfg3.N) (j : S128x128.Idx) :
    (iblk3 V c 2 t : Vec Ideal S128x128 .f32) j = (V c main_v85 : S128x128.Idx → EReal) j := by
  obtain ⟨-, -, -, -, e0, e1, -⟩ := index_maps3 t
  unfold iblk3
  rw [View.read_apply]
  show V c main_v85 _ = V c main_v85 _
  refine congrArg (V c main_v85) (funext fun a => Fin.ext ?_)
  match a with
  | ⟨0, _⟩ => show win3_2.index t (0 : Fin 2) * 128 + 1 * (j 0).val = (j 0).val; rw [e0]; omega
  | ⟨1, _⟩ => show win3_2.index t (1 : Fin 2) * 128 + 1 * (j 1).val = (j 1).val; rw [e1]; omega

/-- Every point's block of the vector is the vector. -/
theorem whole3_3 (c : Dev nD) (t : Fin cfg3.N) (j : S128.Idx) :
    (iblk3 V c 3 t : Vec Ideal S128 .f32) j = (V c main_arg13 : S128.Idx → EReal) j := by
  obtain ⟨-, -, -, -, -, -, e0, -⟩ := index_maps3 t
  unfold iblk3
  rw [View.read_apply]
  show V c main_arg13 _ = V c main_arg13 _
  refine congrArg (V c main_arg13) (funext fun a => Fin.ext ?_)
  match a with
  | ⟨0, _⟩ => show win3_3.index t (0 : Fin 1) * 128 + 1 * (j 0).val = (j 0).val; rw [e0]; omega

/-- Every point's block of the second square matrix is the matrix. -/
theorem whole4_3 (c : Dev nD) (t : Fin cfg3.N) (j : S128x128.Idx) :
    (iblk3 V c 4 t : Vec Ideal S128x128 .f32) j = (V c main_v86 : S128x128.Idx → EReal) j := by
  obtain ⟨-, -, -, -, -, -, -, e0, e1, -⟩ := index_maps3 t
  unfold iblk3
  rw [View.read_apply]
  show V c main_v86 _ = V c main_v86 _
  refine congrArg (V c main_v86) (funext fun a => Fin.ext ?_)
  match a with
  | ⟨0, _⟩ => show win3_4.index t (0 : Fin 2) * 128 + 1 * (j 0).val = (j 0).val; rw [e0]; omega
  | ⟨1, _⟩ => show win3_4.index t (1 : Fin 2) * 128 + 1 * (j 1).val = (j 1).val; rw [e1]; omega

/-- WHAT POINT t WRITES BACK is block t of the dense step of the arrays as the region finds them. -/
theorem flushed3_eq (c : Dev nD) (t : Fin cfg3.N) :
    (dat3 (F := Ideal) V c).flushed 5 t = ((cfg3.win 5).blk t).view.read (Elt Ideal) (Cert.Spec.dense (V c main_v84) (V c main_v43) (V c main_v85) (V c main_arg13) (V c main_v86)) := by
  show (cfg3.win 5).cut (grid3.coords t) ((dat3 V c).after 5 t) = _
  rw [after3_5]
  unfold out3_5
  rw [View.canon_unit_zero zeros2]
  simp only [View.ld_unit_zero (S := S2000x128) zeros2, View.ld_unit_zero (S := S128x128) zeros2, View.ld_unit_zero (S := S128) zeros1]
  obtain ⟨-, -, -, -, -, -, -, -, -, e0, e1⟩ := index_maps3 t
  funext j
  obtain ⟨p, q, rfl⟩ : ∃ (p : Fin 2000) (q : Fin 128), j = ix2 p q := ⟨j 0, j 1, eq_ix2 j⟩
  refine (k3_pay1_at _ _ _ _ _ p q).trans ?_
  rw [View.read_apply]
  have hp : p.val < 2000 := p.isLt
  have ht : t.val < 25 := lt_of_lt_of_eq t.isLt N_3
  have hemb : ((cfg3.win 5).blk t).view.emb (ix2 p q) = (ix2 (⟨t.val * 2000 + p.val, by omega⟩ : Fin 50000) q : S50000x128.Idx) := by
    funext a; apply Fin.ext
    match a with
    | ⟨0, _⟩ => show win3_5.index t (0 : Fin 2) * 2000 + 1 * p.val = t.val * 2000 + p.val; rw [e0]; omega
    | ⟨1, _⟩ => show win3_5.index t (1 : Fin 2) * 128 + 1 * q.val = q.val; rw [e1]; omega
  rw [hemb]
  exact dense_block_at _ _ _ _ _ _ _ _ _ _ p q _
    (fun k => rows0_3 V c t p k _ rfl) (fun k => rows1_3 V c t p k _ rfl)
    (whole2_3 V c t) (whole3_3 V c t) (whole4_3 V c t)

/-- An index of the array is in point t's block iff each coordinate is in the block's range on its axis. -/
theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v87).slice (win3_5.rect t)).set ↔ _
  rw [View.set_slice_whole, Rect.mem_set_unit]
  exact Iff.rfl

/-- Every index of the array is in some point's block: row r is in block r / 2000. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_5 _, ?_⟩
  rw [mem_blk3]
  obtain ⟨-, -, -, -, -, -, -, -, -, e0, e1⟩ := index_maps3 ⟨(i 0).val / 2000, by rw [hN]; omega⟩
  intro a
  match a with
  | ⟨0, _⟩ => show win3_5.index _ (0 : Fin 2) * 2000 ≤ (i 0).val ∧ (i 0).val < win3_5.index _ (0 : Fin 2) * 2000 + 2000; rw [e0]; show (i 0).val / 2000 * 2000 ≤ (i 0).val ∧ (i 0).val < (i 0).val / 2000 * 2000 + 2000; omega
  | ⟨1, _⟩ => show win3_5.index _ (1 : Fin 2) * 128 ≤ (i 1).val ∧ (i 1).val < win3_5.index _ (1 : Fin 2) * 128 + 128; rw [e1]; omega

end Region3

/-- THE ARRAY after region 3's run: the dense step of the region's input arrays. -/
theorem arr3 (V : (c : Dev nD) → (b : Ref sig .tc) → Buf (Elt Ideal) ((c : Thread nD τ).loc b)) (c : Dev nD) :
    (dat3 (F := Ideal) V c).arrAt 5 cfg3.N = Cert.Spec.dense (V c main_v84) (V c main_v43) (V c main_v85) (V c main_arg13) (V c main_v86) :=
  (dat3 (F := Ideal) V c).arrAt_eq_of_cover 5 (Cert.Spec.dense (V c main_v84) (V c main_v43) (V c main_v85) (V c main_arg13) (V c main_v86)) (fun t _ => flushed3_eq V c t) cover3

end Cert.KernelIdeal.DenseValue

end
-- ==== Proof.RefRun.lean ====
/-
  The reference program's result, read off its run: the term its operations compose is, word for word, the network of
  `Cert.Hand.refResult` over the argument arrays (the shared host steps named, nothing opened).
-/
import proofs.«105883_j54863912239638_1_alg».proof.Proof.Gen.ReferenceIdeal.Run
import proofs.«105883_j54863912239638_1_alg».proof.Proof.HostChain

noncomputable section

namespace Cert.Hand

open Cert.ReferenceIdeal Cert.ReferenceIdeal.Gen Cert.ReferenceIdeal.Value Idealize.ShloMosaic Idealize.ShloMosaic.TcCoe Idealize.SL.Sem

/-- The run's composed term is the reference network of the argument arrays. -/
theorem res_eq_refResult (m : (ℓ : Loc nD τ sig) → Buf (Elt Ideal) ℓ) (c : Dev nD) :
    res_main_v133 (F := Ideal) m c
      = refResult (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
          (m ((c.tc : Thread nD τ).loc main_arg13))
          (m ((c.tc : Thread nD τ).loc main_arg14)) (m ((c.tc : Thread nD τ).loc main_arg15)) (m ((c.tc : Thread nD τ).loc main_arg16))
          (m ((c.tc : Thread nD τ).loc main_arg17)) (m ((c.tc : Thread nD τ).loc main_arg18)) (m ((c.tc : Thread nD τ).loc main_arg19)) := by
  unfold res_main_v133 refResult refCos takeU takeJ refDenseU refDenseJ refReluU refReluJ meanU meanJ tr
  rfl

end Cert.Hand

end
-- ==== Proof.RefForms.lean ====
/-
  The reference program's dense step, clamp and scoring, read entry by entry, are the specification's.

  A host contraction of a matrix with a 128 × 128 matrix, read at row `r` and column `j`, is the sum over the 128
  contraction coordinates of the products of the two entries; a bias vector broadcast first to one row and then to
  every row, read at `(r, j)`, is its entry `j`; a scalar constant broadcast to an array is that constant at every
  entry; a host sum along the second axis starting from zero, read at row `r`, is the sum of that row's 128 entries.
  With these readings each reference form differs from the specification's only by the order in which the bias joins
  the two products, and addition of extended reals is commutative and associative.
-/
import proofs.«105883_j54863912239638_1_alg».proof.Proof.HostChain
import proofs.«105883_j54863912239638_1_alg».proof.Proof.Spec
import Idealize.ShloMosaic.Lib.ValueIdx
import Idealize.ShloMosaic.Lib.Pipeline.Value
import Idealize.ShloMosaic.PureOps.Ideal.Laws

noncomputable section

namespace Cert.Hand

open Cert.ReferenceIdeal Cert.ReferenceIdeal.Gen Idealize.ShloMosaic Idealize.ShloMosaic.TcCoe Idealize.ShloMosaic.ValueIdx

/-! ## The contraction with 20000 rows -/

theorem lhsJ_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
theorem lhsJ_1 (i : S20000x128.Idx) (q : dot_S20000x128_S128x128_S20000x128_1_0_0_1_n_n.contr.Idx) :
    (dot_S20000x128_S128x128_S20000x128_1_0_0_1_n_n.lhsIdx i q 1).val = (q ⟨0, by decide⟩).val :=
  dot_S20000x128_S128x128_S20000x128_1_0_0_1_n_n.lhsIdx_val_of_single rfl i q
theorem rhsJ_0 (i : S20000x128.Idx) (q : dot_S20000x128_S128x128_S20000x128_1_0_0_1_n_n.contr.Idx) :
    (dot_S20000x128_S128x128_S20000x128_1_0_0_1_n_n.rhsIdx i q 0).val = (q ⟨0, by decide⟩).val :=
  dot_S20000x128_S128x128_S20000x128_1_0_0_1_n_n.rhsIdx_val_of_single rfl i q
theorem rhsJ_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl

/-- The host contraction read at row `r`, column `j`: `∑ₖ M[r,k] · A[k,j]`. -/
theorem dotJ_apply (M : MJ) (A : MW) (r : Fin 20000) (j : Fin 128) :
    Host.dotGeneral dot_S20000x128_S128x128_S20000x128_1_0_0_1_n_n none M A (ix2 r j) = Cert.Spec.rowcol M A r j := by
  unfold Cert.Spec.rowcol
  simp only [Host.dotGeneral]
  rw [Ideal.dotGeneral_apply, ← Equiv.sum_comp (ValueIdx.contrEquiv1 dot_S20000x128_S128x128_S20000x128_1_0_0_1_n_n 128 rfl rfl).symm]
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx (ix2 r j) ((ValueIdx.contrEquiv1 dot_S20000x128_S128x128_S20000x128_1_0_0_1_n_n 128 rfl rfl).symm k) = ix2 r k := funext fun a => Fin.ext (by
    match a with
    | ⟨0, _⟩ => exact lhsJ_0 _ _
    | ⟨1, _⟩ => exact (lhsJ_1 _ _).trans hk)
  have er : dot_S20000x128_S128x128_S20000x128_1_0_0_1_n_n.rhsIdx (ix2 r j) ((ValueIdx.contrEquiv1 dot_S20000x128_S128x128_S20000x128_1_0_0_1_n_n 128 rfl rfl).symm k) = ix2 k j := funext fun a => Fin.ext (by
    match a with
    | ⟨0, _⟩ => exact (rhsJ_0 _ _).trans hk
    | ⟨1, _⟩ => exact rhsJ_1 _ _)
  rw [el, er]

/-! ## The contraction with 50000 rows -/

theorem lhsU_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhsU_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhsU_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhsU_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host contraction read at row `r`, column `j`: `∑ₖ M[r,k] · A[k,j]`. -/
theorem dotU_apply (M : MU) (A : MW) (r : Fin 50000) (j : Fin 128) :
    Host.dotGeneral dot_S50000x128_S128x128_S50000x128_1_0_0_1_n_n none M A (ix2 r j) = Cert.Spec.rowcol M A r j := by
  unfold Cert.Spec.rowcol
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r j) ((ValueIdx.contrEquiv1 dot_S50000x128_S128x128_S50000x128_1_0_0_1_n_n 128 rfl rfl).symm k) = ix2 r k := funext fun a => Fin.ext (by
    match a with
    | ⟨0, _⟩ => exact lhsU_0 _ _
    | ⟨1, _⟩ => exact (lhsU_1 _ _).trans hk)
  have er : dot_S50000x128_S128x128_S50000x128_1_0_0_1_n_n.rhsIdx (ix2 r j) ((ValueIdx.contrEquiv1 dot_S50000x128_S128x128_S50000x128_1_0_0_1_n_n 128 rfl rfl).symm k) = ix2 k j := funext fun a => Fin.ext (by
    match a with
    | ⟨0, _⟩ => exact (rhsU_0 _ _).trans hk
    | ⟨1, _⟩ => exact rhsU_1 _ _)
  rw [el, er]

/-! ## The bias as a row -/

/-- A vector broadcast to a one-row matrix, read at `(z, j)`, is its entry `j`. -/
theorem row_apply (b : VB) (z : Fin 1) (j : Fin 128) :
    broadcastInDim S1x128 ![1] bcast_S128_S1x128_1 b (ix2 z j) = b (ix1 j) :=
  broadcastInDim_apply _ bcast_S128_S1x128_1 b (ix2 z j) (ix1 j) (fun a => match a with
    | ⟨0, _⟩ => by show j.val = if (128 : Nat) = 1 then 0 else j.val; rw [if_neg (by decide)])

/-! ## Broadcasts into 20000 rows -/

/-- A one-row matrix broadcast to every row, read at `(r, j)`, is its entry `(0, j)`. -/
theorem rowsJ_apply (y : S1x128.Idx → EReal) (r : Fin 20000) (j : Fin 128) :
    broadcastInDim S20000x128 ![0, 1] bcast_S1x128_S20000x128_0_1 y (ix2 r j) = y (ix2 ⟨0, Nat.one_pos⟩ j) :=
  broadcastInDim_apply _ bcast_S1x128_S20000x128_0_1 y (ix2 r j) (ix2 ⟨0, Nat.one_pos⟩ j) (fun a => match a with
    | ⟨0, _⟩ => by show 0 = if (1 : Nat) = 1 then 0 else r.val; rw [if_pos rfl]
    | ⟨1, _⟩ => by show j.val = if (128 : Nat) = 1 then 0 else j.val; rw [if_neg (by decide)])

/-- The bias, broadcast to one row and then to every row, read at `(r, j)`, is its entry `j`. -/
theorem biasJ_apply (b : VB) (r : Fin 20000) (j : Fin 128) :
    broadcastInDim S20000x128 ![0, 1] bcast_S1x128_S20000x128_0_1 (broadcastInDim S1x128 ![1] bcast_S128_S1x128_1 b) (ix2 r j) = b (ix1 j) :=
  (rowsJ_apply _ r j).trans (row_apply b ⟨0, Nat.one_pos⟩ j)

/-- A scalar constant broadcast to the whole array is that constant at every entry. -/
theorem splatJ_apply (w : BitVec 32) (i : S20000x128.Idx) :
    broadcastInDim S20000x128 ![] bcast_S_S20000x128 (constant (F := Ideal) S_ .f32 w) i = Ideal.ofBits .f32 w :=
  broadcastInDim_apply _ bcast_S_S20000x128 (constant (F := Ideal) S_ .f32 w) i (fun a => a.elim0) (fun a => a.elim0)

/-! ## Broadcasts into 50000 rows -/

/-- A one-row matrix broadcast to every row, read at `(r, j)`, is its entry `(0, j)`. -/
theorem rowsU_apply (y : S1x128.Idx → EReal) (r : Fin 50000) (j : Fin 128) :
    broadcastInDim S50000x128 ![0, 1] bcast_S1x128_S50000x128_0_1 y (ix2 r j) = y (ix2 ⟨0, Nat.one_pos⟩ j) :=
  broadcastInDim_apply _ bcast_S1x128_S50000x128_0_1 y (ix2 r j) (ix2 ⟨0, Nat.one_pos⟩ j) (fun a => match a with
    | ⟨0, _⟩ => by show 0 = if (1 : Nat) = 1 then 0 else r.val; rw [if_pos rfl]
    | ⟨1, _⟩ => by show j.val = if (128 : Nat) = 1 then 0 else j.val; rw [if_neg (by decide)])

/-- The bias, broadcast to one row and then to every row, read at `(r, j)`, is its entry `j`. -/
theorem biasU_apply (b : VB) (r : Fin 50000) (j : Fin 128) :
    broadcastInDim S50000x128 ![0, 1] bcast_S1x128_S50000x128_0_1 (broadcastInDim S1x128 ![1] bcast_S128_S1x128_1 b) (ix2 r j) = b (ix1 j) :=
  (rowsU_apply _ r j).trans (row_apply b ⟨0, Nat.one_pos⟩ j)

/-- A scalar constant broadcast to the whole array is that constant at every entry. -/
theorem splatU_apply (w : BitVec 32) (i : S50000x128.Idx) :
    broadcastInDim S50000x128 ![] bcast_S_S50000x128 (constant (F := Ideal) S_ .f32 w) i = Ideal.ofBits .f32 w :=
  broadcastInDim_apply _ bcast_S_S50000x128 (constant (F := Ideal) S_ .f32 w) i (fun a => a.elim0) (fun a => a.elim0)

/-! ## The dense step and the clamp with 20000 rows -/

theorem refDenseJ_eq (M X : MJ) (A : MW) (b : VB) (B : MW) : refDenseJ M X A b B = Cert.Spec.dense M X A b B := by
  funext i
  obtain ⟨r, j, rfl⟩ : ∃ (r : Fin 20000) (j : Fin 128), i = ix2 r j := ⟨i 0, i 1, eq_ix2 i⟩
  unfold refDenseJ Cert.Spec.dense
  rw [addf_apply, addf_apply, dotJ_apply, dotJ_apply, biasJ_apply]
  exact Cert.Spec.add_bias_comm _ _ _

theorem refReluJ_eq (Z : MJ) : refReluJ Z = Cert.Spec.relu Z := by
  funext i
  unfold refReluJ Cert.Spec.relu
  rw [maximumf_apply, splatJ_apply]

/-! ## The dense step and the clamp with 50000 rows -/

theorem refDenseU_eq (M X : MU) (A : MW) (b : VB) (B : MW) : refDenseU M X A b B = Cert.Spec.dense M X A b B := by
  funext i
  obtain ⟨r, j, rfl⟩ : ∃ (r : Fin 50000) (j : Fin 128), i = ix2 r j := ⟨i 0, i 1, eq_ix2 i⟩
  unfold refDenseU Cert.Spec.dense
  rw [addf_apply, addf_apply, dotU_apply, dotU_apply, biasU_apply]
  exact Cert.Spec.add_bias_comm _ _ _

theorem refReluU_eq (Z : MU) : refReluU Z = Cert.Spec.relu Z := by
  funext i
  unfold refReluU Cert.Spec.relu
  rw [maximumf_apply, splatU_apply]

/-! ## The scores -/

/-- A scalar constant broadcast to a vector is that constant at every entry. -/
theorem splatE_apply (w : BitVec 32) (i : S100000.Idx) :
    broadcastInDim S100000 ![] bcast_S_S100000 (constant (F := Ideal) S_ .f32 w) i = Ideal.ofBits .f32 w :=
  broadcastInDim_apply _ bcast_S_S100000 (constant (F := Ideal) S_ .f32 w) i (fun a => a.elim0) (fun a => a.elim0)

/-- The host sum along the second axis, read at row `r`: the initial value plus the sum of the row's 128 entries. -/
theorem rowsum_init_apply (x : ME) (c : S_.Idx → EReal) (r : Fin 100000) :
    Host.reduceAdd (F := Ideal) (φ := .f32) x c reducesTo_S100000x128_S100000_d1 h_S_ (ix1 r)
      = c (Shape.Idx.first h_S_) + ∑ k : Fin 128, x (ix2 r k) := by
  simp only [Host.reduceAdd, Ideal.hostReduceAdd_def]
  rw [Ideal.hostReduceAdd_single reducesTo_S100000x128_S100000_d1 (by decide)]
  refine congrArg (_ + ·) (Finset.sum_congr rfl fun k _ => ?_)
  exact congrArg x (funext fun a => Fin.ext (by match a with | ⟨0, _⟩ => rfl | ⟨1, _⟩ => rfl))

/-- From the zero constant the host sum at row `r` is the sum of the row's entries. -/
theorem rowsum_apply (x : ME) (r : Fin 100000) :
    Host.reduceAdd x (constant (F := Ideal) S_ .f32 0x00000000#32) reducesTo_S100000x128_S100000_d1 h_S_ (ix1 r)
      = ∑ k : Fin 128, x (ix2 r k) := by
  rw [rowsum_init_apply, constant_apply, Ideal.ofBits_zero_f32, zero_add]

theorem hostDivf_apply {s : Shape} {φ : FTy} (x y : FVec Ideal s φ) (i : s.Idx) : Host.divf x y i = Ideal.div (x i) (y i) := rfl

theorem hostSqrt_apply {s : Shape} {φ : FTy} (x : FVec Ideal s φ) (i : s.Idx) : Host.sqrt x i = Ideal.sqrt (x i) := rfl

theorem refCos_eq (a b : ME) : refCos a b = Cert.Spec.cosine a b := by
  funext i
  obtain ⟨r, rfl⟩ : ∃ r : Fin 100000, i = ix1 r := ⟨i 0, eq_ix1 i⟩
  unfold refCos Cert.Spec.cosine Cert.Spec.cosrow Cert.Spec.rowdot
  rw [hostDivf_apply, mulf_apply, maximumf_apply, maximumf_apply, hostSqrt_apply, hostSqrt_apply,
    rowsum_apply, rowsum_apply, rowsum_apply, splatE_apply]
  rfl

end Cert.Hand

end
-- ==== Proof.RefNet.lean ====
/-
  The reference's network is the specification's: each of its dense steps, clamps and its scoring is the
  specification's form of the same arrays (the bias may join the sum before or after the second product), so the two
  networks of `Cert.Hand` are one function of the argument arrays.
-/
import proofs.«105883_j54863912239638_1_alg».proof.Proof.HostChain
import proofs.«105883_j54863912239638_1_alg».proof.Proof.RefForms

noncomputable section

namespace Cert.Hand

open Cert.ReferenceIdeal Cert.ReferenceIdeal.Gen Idealize.ShloMosaic Idealize.ShloMosaic.TcCoe

theorem refResult_eq_result (xu : MU) (xj : MJ) (w2 w3 w4 w5 w6 w7 w8 w9 : MW) (b10 b11 b12 b13 : VB) (s14 d15 s16 d17 : IE) (eu ej : IL) :
    refResult xu xj w2 w3 w4 w5 w6 w7 w8 w9 b10 b11 b12 b13 s14 d15 s16 d17 eu ej
      = result xu xj w2 w3 w4 w5 w6 w7 w8 w9 b10 b11 b12 b13 s14 d15 s16 d17 eu ej := by
  unfold refResult result
  simp only [refDenseJ_eq, refDenseU_eq, refReluJ_eq, refReluU_eq, refCos_eq]

end Cert.Hand

end
-- ==== Proof.lean ====
/-
  The certificate of a two-layer graph network scored by cosine similarity: a program of five launched regions
  (four dense steps `mean · Wlᵀ + x · Wrᵀ + b`, the first two clamped at zero, and one row-wise cosine) among host
  gathers and scatter-adds, against the same network written with host matrix products.

  At the ideal instance both programs compute ONE function of the argument arrays, `Cert.Hand.result`: the host
  gathers, scatter-adds and mean divisions are the same operations on both sides and are carried unopened; a dense
  region's matrix products into a zero accumulator and the host's `dot_general` are the same sums over the contracted
  axis; the kernel adds the bias after the second product and the reference before it, which agree because addition of
  extended reals is commutative and associative (no finiteness is used, and the precondition is never opened); the
  clamp and the cosine are the same pointwise operations, the lane sums and the host reductions the same sums.
  The kernel side reads the result off the run of the program's eleven segments (`Hand.run_value`, `Hand.W11_v103`),
  each region's result array from its body's arithmetic and its blocks (`DenseValue.arr0 … arr3`, `CosValue.arr4`);
  the reference side off its run's composed term (`Cert.Hand.res_eq_refResult`, `refResult_eq_result`).
  The three frames are the generated ones; the idealization rewrote nothing, so `preserves` is trivial.
-/
import proofs.«105883_j54863912239638_1_alg».proof.Defs
import proofs.«105883_j54863912239638_1_alg».proof.Proof.Gen.Kernel
import proofs.«105883_j54863912239638_1_alg».proof.Proof.Gen.Kernel.Skeleton
import proofs.«105883_j54863912239638_1_alg».proof.Proof.Gen.Kernel.Launch
import proofs.«105883_j54863912239638_1_alg».proof.Proof.Gen.Kernel.Points
import proofs.«105883_j54863912239638_1_alg».proof.Proof.Gen.Kernel.Frame
import proofs.«105883_j54863912239638_1_alg».proof.Proof.Gen.KernelIdeal
import proofs.«105883_j54863912239638_1_alg».proof.Proof.Gen.KernelIdeal.Skeleton
import proofs.«105883_j54863912239638_1_alg».proof.Proof.Gen.KernelIdeal.Launch
import proofs.«105883_j54863912239638_1_alg».proof.Proof.Gen.KernelIdeal.Points
import proofs.«105883_j54863912239638_1_alg».proof.Proof.Gen.KernelIdeal.Frame
import proofs.«105883_j54863912239638_1_alg».proof.Proof.Gen.ReferenceIdeal
import proofs.«105883_j54863912239638_1_alg».proof.Proof.Gen.Pre_finite_inputs
import proofs.«105883_j54863912239638_1_alg».proof.Proof.Gen.ReferenceIdeal.Run
import proofs.«105883_j54863912239638_1_alg».proof.Proof.Gen.ReferenceIdeal.Read
import proofs.«105883_j54863912239638_1_alg».proof.Proof.KRun
import proofs.«105883_j54863912239638_1_alg».proof.Proof.Fold
import proofs.«105883_j54863912239638_1_alg».proof.Proof.Dense0
import proofs.«105883_j54863912239638_1_alg».proof.Proof.Dense1
import proofs.«105883_j54863912239638_1_alg».proof.Proof.Dense2
import proofs.«105883_j54863912239638_1_alg».proof.Proof.Dense3
import proofs.«105883_j54863912239638_1_alg».proof.Proof.RefRun
import proofs.«105883_j54863912239638_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the one network of the
    argument arrays. -/
theorem algebraic : Cert.algebraic_KernelIdeal_ReferenceIdeal := by
  intro m ρ m' ρ' _ hagree
  refine ⟨fun c => Cert.Hand.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun _ h c => ⟨(h c).1.trans (Cert.KernelIdeal.Hand.W11_v103 m ρ c Cert.KernelIdeal.DenseValue.arr0 Cert.KernelIdeal.DenseValue.arr1
        Cert.KernelIdeal.DenseValue.arr2 Cert.KernelIdeal.DenseValue.arr3), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19⟩ := hagree c
    rw [Cert.Hand.res_eq_refResult m' c, e0, e1, e2, e3, e4, e5, e6, e7, e8, e9, e10, e11, e12, e13, e14, e15, e16, e17, e18, e19]
    exact Cert.Hand.refResult_eq_result _ _ _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
